-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S640000 : Shape := ⟨1, ![640000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg11 : FVec F S256x256 .f32) (main_arg12 : FVec F S256 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_v33

def fn {F : FTy → Type} [FloatOps F] (main_arg0 : FVec F S20000x256 .f32) (main_arg1 : IVec S640000 32) (main_arg2 : IVec S640000 32) (main_arg3 : IVec S640000 32) (main_arg4 : IVec S640000 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_v13 main_v16
-- ==== Kernel.lean ====
abbrev S20000x256 : Shape := ⟨2, ![20000, 256]⟩
abbrev S640000 : Shape := ⟨1, ![640000]⟩
abbrev S256x256 : Shape := ⟨2, ![256, 256]⟩
abbrev S256 : Shape := ⟨1, ![256]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S2000x256 : Shape := ⟨2, ![2000, 256]⟩
abbrev S2000x1 : Shape := ⟨2, ![2000, 1]⟩
abbrev S640000x256 : Shape := ⟨2, ![640000, 256]⟩
abbrev S1x256 : Shape := ⟨2, ![1, 256]⟩

abbrev nBuf : Space → Nat
  | .hbm => 131
  | .vmem => 52
  | .smem => 0
  | _ => 0

abbrev hbmTy0_0 (i : Nat) : BufTy := match i % 128 with
  | 0 => ⟨S20000x256, .f32⟩
  | 1 => ⟨S640000, .i32⟩
  | 2 => ⟨S640000, .i32⟩
  | 3 => ⟨S640000, .i32⟩
  | 4 => ⟨S640000, .i32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S_, .f32⟩
  | 14 => ⟨S640000, .f32⟩
  | 15 => ⟨S_, .f32⟩
  | 16 => ⟨S20000, .f32⟩
  | 17 => ⟨S640000x1, .i32⟩
  | 18 => ⟨S20000, .f32⟩
  | 19 => ⟨S_, .f32⟩
  | 20 => ⟨S20000, .f32⟩
  | 21 => ⟨S20000, .f32⟩
  | 22 => ⟨S_, .f32⟩
  | 23 => ⟨S20000, .f32⟩
  | 24 => ⟨S640000x1, .i32⟩
  | 25 => ⟨S20000, .f32⟩
  | 26 => ⟨S_, .f32⟩
  | 27 => ⟨S20000, .f32⟩
  | 28 => ⟨S20000, .f32⟩
  | 29 => ⟨S_, .f32⟩
  | 30 => ⟨S20000, .f32⟩
  | 31 => ⟨S20000, .f32⟩
  | 32 => ⟨S_, .f32⟩
  | 33 => ⟨S20000, .f32⟩
  | 34 => ⟨S20000, .f32⟩
  | 35 => ⟨S_, .f32⟩
  | 36 => ⟨S640000, .f32⟩
  | 37 => ⟨S_, .f32⟩
  | 38 => ⟨S20000, .f32⟩
  | 39 => ⟨S640000x1, .i32⟩
  | 40 => ⟨S20000, .f32⟩
  | 41 => ⟨S_, .f32⟩
  | 42 => ⟨S20000, .f32⟩
  | 43 => ⟨S20000, .f32⟩
  | 44 => ⟨S_, .f32⟩
  | 45 => ⟨S20000, .f32⟩
  | 46 => ⟨S640000x1, .i32⟩
  | 47 => ⟨S20000, .f32⟩
  | 48 => ⟨S_, .f32⟩
  | 49 => ⟨S20000, .f32⟩
  | 50 => ⟨S20000, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .f32⟩
  | 57 => ⟨S20000x1, .f32⟩
  | 58 => ⟨S20000x256, .f32⟩
  | 59 => ⟨S20000x1, .f32⟩
  | 60 => ⟨S20000x256, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x256, .f32⟩
  | 70 => ⟨S_, .f32⟩
  | 71 => ⟨S20000x256, .f32⟩
  | 72 => ⟨S640000x1, .i32⟩
  | 73 => ⟨S20000x256, .f32⟩
  | 74 => ⟨S_, .i32⟩
  | 75 => ⟨S640000, .i32⟩
  | 76 => ⟨S640000, .i1⟩
  | 77 => ⟨S_, .i32⟩
  | 78 => ⟨S640000, .i32⟩
  | 79 => ⟨S640000, .i32⟩
  | 80 => ⟨S640000, .i32⟩
  | 81 => ⟨S640000x1, .i32⟩
  | 82 => ⟨S640000x256, .f32⟩
  | 83 => ⟨S_, .f32⟩
  | 84 => ⟨S20000x256, .f32⟩
  | 85 => ⟨S640000x1, .i32⟩
  | 86 => ⟨S20000x256, .f32⟩
  | 87 => ⟨S256x256, .bf16⟩
  | 88 => ⟨S256x256, .bf16⟩
  | 89 => ⟨S1x256, .f32⟩
  | 90 => ⟨S1x256, .f32⟩
  | 91 => ⟨S20000x1, .f32⟩
  | 92 => ⟨S20000x1, .f32⟩
  | 93 => ⟨S20000x256, .f32⟩
  | 94 => ⟨S20000x1, .f32⟩
  | 95 => ⟨S20000x256, .f32⟩
  | 96 => ⟨S20000x1, .f32⟩
  | 97 => ⟨S20000x256, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x256, .f32⟩
  | 107 => ⟨S_, .f32⟩
  | 108 => ⟨S20000x256, .f32⟩
  | 109 => ⟨S640000x1, .i32⟩
  | 110 => ⟨S20000x256, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x256, .f32⟩
  | 120 => ⟨S_, .f32⟩
  | 121 => ⟨S20000x256, .f32⟩
  | 122 => ⟨S640000x1, .i32⟩
  | 123 => ⟨S20000x256, .f32⟩
  | 124 => ⟨S256x256, .bf16⟩
  | 125 => ⟨S256x256, .bf16⟩
  | 126 => ⟨S1x256, .f32⟩
  | 127 => ⟨S1x256, .f32⟩
  | _ => ⟨S20000x256, .f32⟩

abbrev hbmTy0_1 (i : Nat) : BufTy := match i % 128 with
  | 0 => ⟨S20000x1, .f32⟩
  | 1 => ⟨S20000x1, .f32⟩
  | 2 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x1, .f32⟩
  | .local _ .vmem, ⟨9, _⟩ => ⟨S2000x1, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S256x256, .bf16⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x1, .f32⟩
  | .local _ .vmem, ⟨35, _⟩ => ⟨S2000x1, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x1, .f32⟩
  | .local _ .vmem, ⟨43, _⟩ => ⟨S2000x1, .f32⟩
  | .local _ .vmem, ⟨44, _⟩ => ⟨S2000x1, .f32⟩
  | .local _ .vmem, ⟨45, _⟩ => ⟨S2000x1, .f32⟩
  | .local _ .vmem, ⟨46, _⟩ => ⟨S256x256, .bf16⟩
  | .local _ .vmem, ⟨47, _⟩ => ⟨S1x256, .f32⟩
  | .local _ .vmem, ⟨48, _⟩ => ⟨S256x256, .bf16⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_cst_7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_8 : Ref sig .tc := ⟨.hbm, 41, rfl⟩
abbrev main_v19 : Ref sig .tc := ⟨.hbm, 42, rfl⟩
abbrev main_v20 : Ref sig .tc := ⟨.hbm, 43, rfl⟩
abbrev main_cst_9 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_10 : Ref sig .tc := ⟨.hbm, 48, rfl⟩
abbrev main_v24 : Ref sig .tc := ⟨.hbm, 49, rfl⟩
abbrev main_v25 : Ref sig .tc := ⟨.hbm, 50, rfl⟩
abbrev main_cst_11 : Ref sig .tc := ⟨.hbm, 51, rfl⟩
abbrev main_v26 : Ref sig .tc := ⟨.hbm, 52, rfl⟩
abbrev main_v27 : Ref sig .tc := ⟨.hbm, 53, rfl⟩
abbrev main_cst_12 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c : Ref sig .tc := ⟨.hbm, 61, rfl⟩
abbrev main_v34 : Ref sig .tc := ⟨.hbm, 62, rfl⟩
abbrev main_v35 : Ref sig .tc := ⟨.hbm, 63, rfl⟩
abbrev main_c_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_14 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_15 : Ref sig .tc := ⟨.hbm, 74, rfl⟩
abbrev main_v44 : Ref sig .tc := ⟨.hbm, 75, rfl⟩
abbrev main_v45 : Ref sig .tc := ⟨.hbm, 76, rfl⟩
abbrev main_c_16 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_c_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_20 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_21 : Ref sig .tc := ⟨.hbm, 111, rfl⟩
abbrev main_v75 : Ref sig .tc := ⟨.hbm, 112, rfl⟩
abbrev main_v76 : Ref sig .tc := ⟨.hbm, 113, rfl⟩
abbrev main_c_22 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_23 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg5_0 : Ref sig .tc := ⟨.vmem, 47, rfl⟩
abbrev cc5_stg6_0 : Ref sig .tc := ⟨.vmem, 48, rfl⟩
abbrev cc5_stg7_0 : Ref sig .tc := ⟨.vmem, 49, rfl⟩
abbrev cc5_stg8_0 : Ref sig .tc := ⟨.vmem, 50, rfl⟩
abbrev cc5_stg8_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem5_0 : DmaSem sig := 47
abbrev cc5_sem6_0 : DmaSem sig := 48
abbrev cc5_sem7_0 : DmaSem sig := 49
abbrev cc5_sem8_0 : DmaSem sig := 50
abbrev cc5_sem8_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S256x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x256 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  shapeCasts_S20000_S20000x1 : S20000.ShapeCasts S20000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S20000x256 : S_.BroadcastsInDim S20000x256 (![] : Fin 0 → Fin S20000x256.rank)
  bitsLt_bf16_f32 : FTy.bits .bf16 < FTy.bits .f32
  shapeCasts_S256_S1x256 : S256.ShapeCasts S1x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S20000_S640000x1_S640000_n_0_0_1_wf : ScatterDims.WF S20000 S640000x1 S640000 [] [0] [0] 1
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S20000x256.size a
  hwx1_2 : ∀ i : grid1.Coords, EltTy.bits .f32 = 32 ∨ (Rect.block (s := S20000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S20000x1.size a
  hwx2_2 : ∀ i : grid2.Coords, EltTy.bits .f32 = 32 ∨ (Rect.block (s := S20000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S20000x1.size a
  hwx2_3 : ∀ i : grid2.Coords, EltTy.bits .f32 = 32 ∨ (Rect.block (s := S20000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .bf16 = 32 ∨ (Rect.block (s := S256x256) S256x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S20000x256.size a
  hwx2_8 : ∀ i : grid2.Coords, EltTy.bits .f32 = 32 ∨ (Rect.block (s := S20000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S20000x1.size a
  hwx3_1 : ∀ i : grid3.Coords, EltTy.bits .f32 = 32 ∨ (Rect.block (s := S20000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S20000x256.size a
  hwx3_2 : ∀ i : grid3.Coords, EltTy.bits .f32 = 32 ∨ (Rect.block (s := S20000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S20000x1.size a
  hwx4_1 : ∀ i : grid4.Coords, EltTy.bits .f32 = 32 ∨ (Rect.block (s := S20000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S20000x256.size a
  hwx4_2 : ∀ i : grid4.Coords, EltTy.bits .f32 = 32 ∨ (Rect.block (s := S20000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .f32 = 32 ∨ (Rect.block (s := S20000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S20000x1.size a
  hwx5_2 : ∀ i : grid5.Coords, EltTy.bits .f32 = 32 ∨ (Rect.block (s := S20000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S20000x1.size a
  hwx5_3 : ∀ i : grid5.Coords, EltTy.bits .f32 = 32 ∨ (Rect.block (s := S20000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .bf16 = 32 ∨ (Rect.block (s := S256x256) S256x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .bf16 = 32 ∨ (Rect.block (s := S256x256) S256x256.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S20000x256.size a
  hwx5_8 : ∀ i : grid5.Coords, EltTy.bits .f32 = 32 ∨ (Rect.block (s := S20000x256) S2000x256.size (cc5_transform_8 i) (hinb5_8 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v89) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v90) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v85) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v88) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v91) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S20000x256 : Shape := ⟨2, ![20000, 256]⟩
abbrev S640000 : Shape := ⟨1, ![640000]⟩
abbrev S256x256 : Shape := ⟨2, ![256, 256]⟩
abbrev S256 : Shape := ⟨1, ![256]⟩
abbrev S_ : Shape := ⟨0, ![]⟩
abbrev S20000 : Shape := ⟨1, ![20000]⟩
abbrev S640000x1 : Shape := ⟨2, ![640000, 1]⟩
abbrev S20000x1 : Shape := ⟨2, ![20000, 1]⟩
abbrev S640000x256 : Shape := ⟨2, ![640000, 256]⟩
abbrev S1x256 : Shape := ⟨2, ![1, 256]⟩

abbrev nBuf : Space → Nat
  | .hbm => 198
  | .vmem => 0
  | .smem => 0
  | _ => 0

abbrev hbmTy0_0 (i : Nat) : BufTy := match i % 128 with
  | 0 => ⟨S20000x256, .f32⟩
  | 1 => ⟨S640000, .i32⟩
  | 2 => ⟨S640000, .i32⟩
  | 3 => ⟨S640000, .i32⟩
  | 4 => ⟨S640000, .i32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S_, .f32⟩
  | 14 => ⟨S640000, .f32⟩
  | 15 => ⟨S_, .f32⟩
  | 16 => ⟨S20000, .f32⟩
  | 17 => ⟨S640000x1, .i32⟩
  | 18 => ⟨S20000, .f32⟩
  | 19 => ⟨S_, .f32⟩
  | 20 => ⟨S20000, .f32⟩
  | 21 => ⟨S20000, .f32⟩
  | 22 => ⟨S_, .f32⟩
  | 23 => ⟨S20000, .f32⟩
  | 24 => ⟨S640000x1, .i32⟩
  | 25 => ⟨S20000, .f32⟩
  | 26 => ⟨S_, .f32⟩
  | 27 => ⟨S20000, .f32⟩
  | 28 => ⟨S20000, .f32⟩
  | 29 => ⟨S_, .f32⟩
  | 30 => ⟨S20000, .f32⟩
  | 31 => ⟨S20000, .f32⟩
  | 32 => ⟨S20000x1, .f32⟩
  | 33 => ⟨S20000x256, .f32⟩
  | 34 => ⟨S20000x256, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x256, .f32⟩
  | 44 => ⟨S_, .f32⟩
  | 45 => ⟨S20000x256, .f32⟩
  | 46 => ⟨S640000x1, .i32⟩
  | 47 => ⟨S20000x256, .f32⟩
  | 48 => ⟨S_, .f32⟩
  | 49 => ⟨S20000, .f32⟩
  | 50 => ⟨S20000, .f32⟩
  | 51 => ⟨S20000x1, .f32⟩
  | 52 => ⟨S20000x256, .f32⟩
  | 53 => ⟨S20000x256, .f32⟩
  | 54 => ⟨S20000x256, .f32⟩
  | 55 => ⟨S1x256, .f32⟩
  | 56 => ⟨S20000x256, .f32⟩
  | 57 => ⟨S20000x256, .f32⟩
  | 58 => ⟨S_, .f32⟩
  | 59 => ⟨S640000, .f32⟩
  | 60 => ⟨S_, .f32⟩
  | 61 => ⟨S20000, .f32⟩
  | 62 => ⟨S640000x1, .i32⟩
  | 63 => ⟨S20000, .f32⟩
  | 64 => ⟨S_, .f32⟩
  | 65 => ⟨S20000, .f32⟩
  | 66 => ⟨S20000, .f32⟩
  | 67 => ⟨S_, .f32⟩
  | 68 => ⟨S20000, .f32⟩
  | 69 => ⟨S640000x1, .i32⟩
  | 70 => ⟨S20000, .f32⟩
  | 71 => ⟨S_, .f32⟩
  | 72 => ⟨S20000, .f32⟩
  | 73 => ⟨S20000, .f32⟩
  | 74 => ⟨S_, .f32⟩
  | 75 => ⟨S20000, .f32⟩
  | 76 => ⟨S20000, .f32⟩
  | 77 => ⟨S20000x1, .f32⟩
  | 78 => ⟨S20000x256, .f32⟩
  | 79 => ⟨S20000x256, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x256, .f32⟩
  | 89 => ⟨S_, .f32⟩
  | 90 => ⟨S20000x256, .f32⟩
  | 91 => ⟨S640000x1, .i32⟩
  | 92 => ⟨S20000x256, .f32⟩
  | 93 => ⟨S_, .f32⟩
  | 94 => ⟨S20000, .f32⟩
  | 95 => ⟨S20000, .f32⟩
  | 96 => ⟨S20000x1, .f32⟩
  | 97 => ⟨S20000x256, .f32⟩
  | 98 => ⟨S20000x256, .f32⟩
  | 99 => ⟨S20000x256, .f32⟩
  | 100 => ⟨S1x256, .f32⟩
  | 101 => ⟨S20000x256, .f32⟩
  | 102 => ⟨S20000x256, .f32⟩
  | 103 => ⟨S20000x256, .f32⟩
  | 104 => ⟨S_, .f32⟩
  | 105 => ⟨S20000x256, .f32⟩
  | 106 => ⟨S20000x256, .f32⟩
  | 107 => ⟨S_, .f32⟩
  | 108 => ⟨S640000, .f32⟩
  | 109 => ⟨S_, .f32⟩
  | 110 => ⟨S20000, .f32⟩
  | 111 => ⟨S640000x1, .i32⟩
  | 112 => ⟨S20000, .f32⟩
  | 113 => ⟨S_, .f32⟩
  | 114 => ⟨S20000, .f32⟩
  | 115 => ⟨S20000, .f32⟩
  | 116 => ⟨S_, .f32⟩
  | 117 => ⟨S20000, .f32⟩
  | 118 => ⟨S640000x1, .i32⟩
  | 119 => ⟨S20000, .f32⟩
  | 120 => ⟨S_, .f32⟩
  | 121 => ⟨S20000, .f32⟩
  | 122 => ⟨S20000, .f32⟩
  | 123 => ⟨S_, .f32⟩
  | 124 => ⟨S20000, .f32⟩
  | 125 => ⟨S20000, .f32⟩
  | 126 => ⟨S20000x1, .f32⟩
  | 127 => ⟨S20000x256, .f32⟩
  | _ => ⟨S20000x256, .f32⟩

abbrev hbmTy0_1 (i : Nat) : BufTy := match i % 128 with
  | 0 => ⟨S20000x256, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x256, .f32⟩
  | 10 => ⟨S_, .f32⟩
  | 11 => ⟨S20000x256, .f32⟩
  | 12 => ⟨S640000x1, .i32⟩
  | 13 => ⟨S20000x256, .f32⟩
  | 14 => ⟨S_, .f32⟩
  | 15 => ⟨S20000, .f32⟩
  | 16 => ⟨S20000, .f32⟩
  | 17 => ⟨S20000x1, .f32⟩
  | 18 => ⟨S20000x256, .f32⟩
  | 19 => ⟨S20000x256, .f32⟩
  | 20 => ⟨S20000x256, .f32⟩
  | 21 => ⟨S1x256, .f32⟩
  | 22 => ⟨S20000x256, .f32⟩
  | 23 => ⟨S20000x256, .f32⟩
  | 24 => ⟨S_, .f32⟩
  | 25 => ⟨S640000, .f32⟩
  | 26 => ⟨S_, .f32⟩
  | 27 => ⟨S20000, .f32⟩
  | 28 => ⟨S640000x1, .i32⟩
  | 29 => ⟨S20000, .f32⟩
  | 30 => ⟨S_, .f32⟩
  | 31 => ⟨S20000, .f32⟩
  | 32 => ⟨S20000, .f32⟩
  | 33 => ⟨S_, .f32⟩
  | 34 => ⟨S20000, .f32⟩
  | 35 => ⟨S640000x1, .i32⟩
  | 36 => ⟨S20000, .f32⟩
  | 37 => ⟨S_, .f32⟩
  | 38 => ⟨S20000, .f32⟩
  | 39 => ⟨S20000, .f32⟩
  | 40 => ⟨S_, .f32⟩
  | 41 => ⟨S20000, .f32⟩
  | 42 => ⟨S20000, .f32⟩
  | 43 => ⟨S20000x1, .f32⟩
  | 44 => ⟨S20000x256, .f32⟩
  | 45 => ⟨S20000x256, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x256, .f32⟩
  | 55 => ⟨S_, .f32⟩
  | 56 => ⟨S20000x256, .f32⟩
  | 57 => ⟨S640000x1, .i32⟩
  | 58 => ⟨S20000x256, .f32⟩
  | 59 => ⟨S_, .f32⟩
  | 60 => ⟨S20000, .f32⟩
  | 61 => ⟨S20000, .f32⟩
  | 62 => ⟨S20000x1, .f32⟩
  | 63 => ⟨S20000x256, .f32⟩
  | 64 => ⟨S20000x256, .f32⟩
  | 65 => ⟨S20000x256, .f32⟩
  | 66 => ⟨S1x256, .f32⟩
  | 67 => ⟨S20000x256, .f32⟩
  | 68 => ⟨S20000x256, .f32⟩
  | 69 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_cst_4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_c_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_17 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call0_cst : Ref sig .tc := ⟨.hbm, 104, rfl⟩
abbrev main_call0_v0 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_cst_19 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_20 : Ref sig .tc := ⟨.hbm, 113, rfl⟩
abbrev main_v76 : Ref sig .tc := ⟨.hbm, 114, rfl⟩
abbrev main_v77 : Ref sig .tc := ⟨.hbm, 115, rfl⟩
abbrev main_cst_21 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_22 : Ref sig .tc := ⟨.hbm, 120, rfl⟩
abbrev main_v81 : Ref sig .tc := ⟨.hbm, 121, rfl⟩
abbrev main_v82 : Ref sig .tc := ⟨.hbm, 122, rfl⟩
abbrev main_cst_23 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_24 : Ref sig .tc := ⟨.hbm, 129, rfl⟩
abbrev main_v88 : Ref sig .tc := ⟨.hbm, 130, rfl⟩
abbrev main_v89 : Ref sig .tc := ⟨.hbm, 131, rfl⟩
abbrev main_c_25 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_26 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_27 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_28 : Ref sig .tc := ⟨.hbm, 152, rfl⟩
abbrev main_v107 : Ref sig .tc := ⟨.hbm, 153, rfl⟩
abbrev main_cst_29 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_30 : Ref sig .tc := ⟨.hbm, 158, rfl⟩
abbrev main_v111 : Ref sig .tc := ⟨.hbm, 159, rfl⟩
abbrev main_v112 : Ref sig .tc := ⟨.hbm, 160, rfl⟩
abbrev main_cst_31 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_32 : Ref sig .tc := ⟨.hbm, 165, rfl⟩
abbrev main_v116 : Ref sig .tc := ⟨.hbm, 166, rfl⟩
abbrev main_v117 : Ref sig .tc := ⟨.hbm, 167, rfl⟩
abbrev main_cst_33 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_34 : Ref sig .tc := ⟨.hbm, 174, rfl⟩
abbrev main_v123 : Ref sig .tc := ⟨.hbm, 175, rfl⟩
abbrev main_v124 : Ref sig .tc := ⟨.hbm, 176, rfl⟩
abbrev main_c_35 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_36 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_37 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  scatter_S20000_S640000x1_S640000_n_0_0_1_wf : ScatterDims.WF S20000 S640000x1 S640000 [] [0] [0] 1
  gather_S20000x256_S640000x1_S640000x256_1_0_n_n_0_1_1256_wf : GatherDims.WF S20000x256 S640000x1 S640000x256 [1] [0] [] [0] [] 1 ![1, 256]
  scatter_S20000x256_S640000x1_S640000x256_1_0_0_1_wf : ScatterDims.WF S20000x256 S640000x1 S640000x256 [1] [0] [0] 1
  dot_S20000x256_S256x256_S20000x256_1_0_0_1_n_n_wf : DotDims.WF S20000x256 S256x256 S20000x256 [1] [0] [0] [1] [] []

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.RunEnds.lean ====
/-
  The idealized kernel's run, with the result named: every weakly fair execution of @main terminates, nothing
  faulting, with the result array at the contents the last region's write-backs leave (the last boundary of the
  fold of @main's stretches and regions over the launch memory) and the argument arrays as launched.
-/
import proofs.«169953_j9345848836755_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the twelve segments from the launch, read at the result's buffer and at the arguments'. -/
theorem run_ends : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.Keep.lean ====
/-
  Which buffers each stretch of host operations writes, and the consequence: a buffer that a stretch does not
  write and that is not one of a region's arrays holds the same contents after it as before it.  Chained, these
  carry an argument, a degree vector or a region's result from where it is produced to where it is read.
-/
import proofs.«169953_j9345848836755_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

abbrev writes0 : List (Ref sig .tc) := [main_cst, main_v0, main_cst_0, main_v1, main_v2, main_v3, main_cst_1, main_v4, main_v5, main_cst_2, main_v6, main_v7, main_v8, main_cst_3, main_v9, main_v10, main_cst_4, main_v11, main_v12, main_cst_5, main_v13, main_v14, main_cst_6, main_v15, main_cst_7, main_v16, main_v17, main_v18, main_cst_8, main_v19, main_v20, main_cst_9, main_v21, main_v22, main_v23, main_cst_10, main_v24, main_v25, main_cst_11, main_v26, main_v27, main_cst_12, main_v28, main_v29, main_v30]

theorem writes0_sub : (hostOps0 : List (HloOp τ sig (Elt F))).Forall fun op => op.writes ⊆ (writes0.map (Proc.devRef (τ := τ) .tc)).toFinset := by
  simp only [hostOps0, writes0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 0 does not write is the same before and after it. -/
theorem hstep0 (c : Dev nD) (b : Ref sig .tc) (hb : b ∉ writes0) :
    W1 m ρ c (Proc.devRef .tc b) = W0 m ρ c (Proc.devRef .tc b) :=
  StableHlo.after_of_writes_sub hostOps0 _ writes0_sub hb

abbrev writes1 : List (Ref sig .tc) := [main_v32]

theorem writes1_sub : (hostOps1 : List (HloOp τ sig (Elt F))).Forall fun op => op.writes ⊆ (writes1.map (Proc.devRef (τ := τ) .tc)).toFinset := by
  simp only [hostOps1, writes1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 1 does not write is the same before and after it. -/
theorem hstep1 (c : Dev nD) (b : Ref sig .tc) (hb : b ∉ writes1) :
    W3 m ρ c (Proc.devRef .tc b) = W2 m ρ c (Proc.devRef .tc b) :=
  StableHlo.after_of_writes_sub hostOps1 _ writes1_sub hb

abbrev writes2 : List (Ref sig .tc) := [main_c, main_v34, main_v35, main_c_13, main_v36, main_v37, main_v38, main_v39, main_v40, main_cst_14, main_v41, main_v42, main_v43, main_c_15, main_v44, main_v45, main_c_16, main_v46, main_v47, main_v48, main_v49, main_v50, main_cst_17, main_v51, main_v52, main_v53, main_v54, main_v55, main_v56, main_v57, main_v58, main_v59]

theorem writes2_sub : (hostOps2 : List (HloOp τ sig (Elt F))).Forall fun op => op.writes ⊆ (writes2.map (Proc.devRef (τ := τ) .tc)).toFinset := by
  simp only [hostOps2, writes2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 2 does not write is the same before and after it. -/
theorem hstep2 (c : Dev nD) (b : Ref sig .tc) (hb : b ∉ writes2) :
    W5 m ρ c (Proc.devRef .tc b) = W4 m ρ c (Proc.devRef .tc b) :=
  StableHlo.after_of_writes_sub hostOps2 _ writes2_sub hb

abbrev writes3 : List (Ref sig .tc) := [main_v61]

theorem writes3_sub : (hostOps3 : List (HloOp τ sig (Elt F))).Forall fun op => op.writes ⊆ (writes3.map (Proc.devRef (τ := τ) .tc)).toFinset := by
  simp only [hostOps3, writes3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 3 does not write is the same before and after it. -/
theorem hstep3 (c : Dev nD) (b : Ref sig .tc) (hb : b ∉ writes3) :
    W7 m ρ c (Proc.devRef .tc b) = W6 m ρ c (Proc.devRef .tc b) :=
  StableHlo.after_of_writes_sub hostOps3 _ writes3_sub hb

abbrev writes4 : List (Ref sig .tc) := [main_v63]

theorem writes4_sub : (hostOps4 : List (HloOp τ sig (Elt F))).Forall fun op => op.writes ⊆ (writes4.map (Proc.devRef (τ := τ) .tc)).toFinset := by
  simp only [hostOps4, writes4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 4 does not write is the same before and after it. -/
theorem hstep4 (c : Dev nD) (b : Ref sig .tc) (hb : b ∉ writes4) :
    W9 m ρ c (Proc.devRef .tc b) = W8 m ρ c (Proc.devRef .tc b) :=
  StableHlo.after_of_writes_sub hostOps4 _ writes4_sub hb

abbrev writes5 : List (Ref sig .tc) := [main_c_18, main_v65, main_v66, main_c_19, main_v67, main_v68, main_v69, main_v70, main_v71, main_cst_20, main_v72, main_v73, main_v74, main_c_21, main_v75, main_v76, main_c_22, main_v77, main_v78, main_v79, main_v80, main_v81, main_cst_23, main_v82, main_v83, main_v84, main_v85, main_v86, main_v87, main_v88, main_v89, main_v90]

theorem writes5_sub : (hostOps5 : List (HloOp τ sig (Elt F))).Forall fun op => op.writes ⊆ (writes5.map (Proc.devRef (τ := τ) .tc)).toFinset := by
  simp only [hostOps5, writes5, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer that stretch 5 does not write is the same before and after it. -/
theorem hstep5 (c : Dev nD) (b : Ref sig .tc) (hb : b ∉ writes5) :
    W11 m ρ c (Proc.devRef .tc b) = W10 m ρ c (Proc.devRef .tc b) :=
  StableHlo.after_of_writes_sub hostOps5 _ writes5_sub hb

/-- From the first region's entry to the second region's exit. -/
theorem keep_1_4 (c : Dev nD) (b : Ref sig .tc) (h1 : b ∉ writes1)
    (r0 : ∀ w, Pipeline.arrRef spec0 w ≠ b) (r1 : ∀ w, Pipeline.arrRef spec1 w ≠ b) :
    W4 m ρ c (Proc.devRef .tc b) = W1 m ρ c (Proc.devRef .tc b) :=
  (W4_of_ne m ρ c b r1).trans ((hstep1 m ρ c b h1).trans (W2_of_ne m ρ c b r0))

/-- Across the third stretch and the third region. -/
theorem keep_4_6 (c : Dev nD) (b : Ref sig .tc) (h2 : b ∉ writes2) (r2 : ∀ w, Pipeline.arrRef spec2 w ≠ b) :
    W6 m ρ c (Proc.devRef .tc b) = W4 m ρ c (Proc.devRef .tc b) :=
  (W6_of_ne m ρ c b r2).trans (hstep2 m ρ c b h2)

/-- Across the fourth stretch and the fourth region. -/
theorem keep_6_8 (c : Dev nD) (b : Ref sig .tc) (h3 : b ∉ writes3) (r3 : ∀ w, Pipeline.arrRef spec3 w ≠ b) :
    W8 m ρ c (Proc.devRef .tc b) = W6 m ρ c (Proc.devRef .tc b) :=
  (W8_of_ne m ρ c b r3).trans (hstep3 m ρ c b h3)

/-- Across the fifth stretch and the fifth region. -/
theorem keep_8_10 (c : Dev nD) (b : Ref sig .tc) (h4 : b ∉ writes4) (r4 : ∀ w, Pipeline.arrRef spec4 w ≠ b) :
    W10 m ρ c (Proc.devRef .tc b) = W8 m ρ c (Proc.devRef .tc b) :=
  (W10_of_ne m ρ c b r4).trans (hstep4 m ρ c b h4)

/-- A region's input array is as the region found it (region 0, an input window `w`). -/
theorem in0 (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- The same for region 3. -/
theorem in3 (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

end Cert.KernelIdeal.Keep

end
-- ==== Proof.Spec.lean ====
/-
  The mathematics both programs compute, over the extended reals, with the irregular part (the degree
  vectors and the sum over a relation's edges) kept abstract.

  A heterogeneous graph convolution over two relations S and U on 20000 nodes with 256 features:
  for a relation with out-degree scaling `o`, in-degree scaling `d` and edge-sum `hop`,
      conv h = (hop (rows of h scaled by o)), rows scaled by d, times W, plus b,
  a layer is the sum of the two relations' convolutions, the first layer is clamped below at zero,
  and the network is two layers.  `mix` is the dense half of a layer in the arrangement
  ((A_S·W_S + A_U·W_U) + b_S) + b_U; `mix_eq_sum` says it is (A_S·W_S + b_S) + (A_U·W_U + b_U):
  addition of extended reals is commutative and associative, so no finiteness is needed.
-/
import Idealize.ShloMosaic.PureOps.Ideal
import Idealize.ShloMosaic.Lib.ValueIdx

noncomputable section

namespace Cert.Spec

open Idealize.ShloMosaic Idealize.ShloMosaic.ValueIdx

/-- Node features: 20000 rows of 256. -/
abbrev SN : Shape := ⟨2, ![20000, 256]⟩
/-- One number per node. -/
abbrev SV : Shape := ⟨1, ![20000]⟩
/-- A weight matrix. -/
abbrev SW : Shape := ⟨2, ![256, 256]⟩
/-- A bias vector. -/
abbrev SB : Shape := ⟨1, ![256]⟩

/-- One number per node, kept as a column. -/
abbrev SC : Shape := ⟨2, ![20000, 1]⟩
/-- A bias kept as one row. -/
abbrev SR : Shape := ⟨2, ![1, 256]⟩

/-- A column read as a vector. -/
def col (s : SC.Idx → EReal) : SV.Idx → EReal := fun j => s (ix2 (j 0) (0 : Fin 1))
/-- A row read as a vector. -/
def row (b : SR.Idx → EReal) : SB.Idx → EReal := fun j => b (ix2 (0 : Fin 1) (j 0))

/-- Row `p` of `x` multiplied by the node's number `s p`. -/
def scaleRows (x : SN.Idx → EReal) (s : SV.Idx → EReal) : SN.Idx → EReal :=
  fun i => x i * s (ix1 (i 0))

/-- One relation's dense product at (p, q): the sum over k of (a[p,k]·d[p])·w[k,q]. -/
def proj (a : SN.Idx → EReal) (d : SV.Idx → EReal) (w : SW.Idx → EReal) : SN.Idx → EReal :=
  fun i => ∑ k : Fin 256, (a (ix2 (i 0) k) * d (ix1 (i 0))) * w (ix2 k (i 1))

/-- The dense half of a layer, both relations, biases added last. -/
def mix (aS aU : SN.Idx → EReal) (dS dU : SV.Idx → EReal) (wS wU : SW.Idx → EReal) (bS bU : SB.Idx → EReal) :
    SN.Idx → EReal :=
  fun i => ((proj aS dS wS i + proj aU dU wU i) + bS (ix1 (i 1))) + bU (ix1 (i 1))

/-- The same with each relation's bias added to its own product first. -/
theorem mix_eq_sum (aS aU : SN.Idx → EReal) (dS dU : SV.Idx → EReal) (wS wU : SW.Idx → EReal) (bS bU : SB.Idx → EReal)
    (i : SN.Idx) :
    mix aS aU dS dU wS wU bS bU i = (proj aS dS wS i + bS (ix1 (i 1))) + (proj aU dU wU i + bU (ix1 (i 1))) := by
  unfold mix
  rw [add_add_add_comm, add_assoc]

/-- Clamp below at the zero word (the zero of the extended reals). -/
def clamp (x : SN.Idx → EReal) : SN.Idx → EReal :=
  fun i => max (x i) (Ideal.ofBits .f32 0x00000000#32)

/-- The irregular part of the two relations, kept abstract: the four degree scalings and the two edge sums. -/
structure Graph where
  outS : SV.Idx → EReal
  inS : SV.Idx → EReal
  outU : SV.Idx → EReal
  inU : SV.Idx → EReal
  hopS : (SN.Idx → EReal) → (SN.Idx → EReal)
  hopU : (SN.Idx → EReal) → (SN.Idx → EReal)

/-- One layer before the clamp. -/
def layer (g : Graph) (h : SN.Idx → EReal) (wS wU : SW.Idx → EReal) (bS bU : SB.Idx → EReal) : SN.Idx → EReal :=
  mix (g.hopS (scaleRows h g.outS)) (g.hopU (scaleRows h g.outU)) g.inS g.inU wS wU bS bU

/-- The two-layer network. -/
def net (g : Graph) (x : SN.Idx → EReal) (w1S w1U : SW.Idx → EReal) (b1S b1U : SB.Idx → EReal)
    (w2S w2U : SW.Idx → EReal) (b2S b2U : SB.Idx → EReal) : SN.Idx → EReal :=
  layer g (clamp (layer g x w1S w1U b1S b1U)) w2S w2U b2S b2U

end Cert.Spec

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.RegionScale.lean ====
/-
  The four row-scaling regions in closed form, over the extended reals.

  Each of these regions walks ten blocks of 2000 rows; at block t it multiplies the block of a [20000, 256] array x
  by the matching block of a [20000, 1] column s, entry by entry along each row, and writes the block of the result.
  Since the ten blocks tile the array and block t of the result depends only on block t of x and s, the array the
  region leaves is one function of x and s:

      out[r, q] = x[r, q] · s[r, 0],

  the specification's `scaleRows x (col s)`. Stated for any contents of the buffers at the region's entry.
-/
import proofs.«169953_j9345848836755_1_alg».proof.Proof.Gen.KernelIdeal.Frame
import proofs.«169953_j9345848836755_1_alg».proof.Proof.Spec
import proofs.«169953_j9345848836755_1_alg».proof.Proof.LibKeepdimsColumn
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access. -/
theorem zero_offsets : (![0, 0] : Fin 2 → Nat) = fun _ => 0 := funext fun a => by fin_cases a <;> rfl

/-- Rows scaled by a column, at an index: the entry times the column's entry in the same row. -/
theorem scaleRows_col_apply (A : Cert.Spec.SN.Idx → EReal) (B : Cert.Spec.SC.Idx → EReal) (i : Cert.Spec.SN.Idx) :
    Cert.Spec.scaleRows A (Cert.Spec.col B) i = A i * B (ix2 (i 0) (0 : Fin 1)) := rfl

variable (V : (c : Dev nD) → (b : Ref sig .tc) → Buf (Elt Ideal) ((c : Thread nD τ).loc b))

/-! ## Region 0: rows of the input features scaled by a column -/

/-- The body's stored value at entry (p, q): the feature x[p, q] times the row's number s[p, 0]. -/
theorem rowScale_entry0 (x : Vec Ideal S2000x256 .f32) (s : Vec Ideal S2000x1 .f32) (p : Fin 2000) (q : Fin 256) :
    k0_pay1 (F := Ideal) x s (ix2 p q) = x (ix2 p q) * s (ix2 p (0 : Fin 1)) := by
  unfold k0_pay1
  rw [mulf_apply, Cert.KeepdimsColumn.broadcastTo_a1_ab_apply, shapeCast_self]

/-- Block indices over the ten grid points: the features' block and the column's block move with the output's block,
    which at point t is block (t, 0). -/
theorem blockIndex0 : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- An array read through the output's block at point t, at a block entry: the array at the entry's place in it. -/
theorem read_out0 (G : S20000x256.Idx → EReal) (t : Fin cfg0.N) (j : S2000x256.Idx) :
    ((cfg0.win 2).blk t).view.read (Elt Ideal) G j = G (((cfg0.win 2).blk t).view.emb j) := rfl

/-- The features' block at point t, at a block entry. -/
theorem read_in0_0 (c : Dev nD) (t : Fin cfg0.N) (j : S2000x256.Idx) :
    iblk0 V c 0 t j = V c (Pipeline.arrRef spec0 0) (((cfg0.win 0).blk t).view.emb j) := rfl

/-- The column's block at point t, at a block entry. -/
theorem read_in0_1 (c : Dev nD) (t : Fin cfg0.N) (j : S2000x1.Idx) :
    iblk0 V c 1 t j = V c (Pipeline.arrRef spec0 1) (((cfg0.win 1).blk t).view.emb j) := rfl

/-- Entry (p, q) of the features' block sits in the array where entry (p, q) of the output's block does:
    row 2000·t + p, column q. -/
theorem emb_in0_0 (t : Fin cfg0.N) (p : Fin 2000) (q : Fin 256) :
    ((cfg0.win 0).blk t).view.emb (ix2 p q) = ((cfg0.win 2).blk t).view.emb (ix2 p q) := by
  obtain ⟨e0, e1, -, -, -, -⟩ := blockIndex0 t
  funext a; apply Fin.ext
  match a with
  | ⟨0, _⟩ =>
    show win0_0.index t (0 : Fin 2) * 2000 + 1 * p.val = win0_2.index t (0 : Fin 2) * 2000 + 1 * p.val
    omega
  | ⟨1, _⟩ =>
    show win0_0.index t (1 : Fin 2) * 256 + 1 * q.val = win0_2.index t (1 : Fin 2) * 256 + 1 * q.val
    omega

/-- Entry (p, 0) of the column's block sits in the column at the row of entry (p, q) of the output's block. -/
theorem emb_in0_1 (t : Fin cfg0.N) (p : Fin 2000) (q : Fin 256) :
    ((cfg0.win 1).blk t).view.emb (ix2 p (0 : Fin 1))
      = ix2 ((((cfg0.win 2).blk t).view.emb (ix2 p q)) 0) (0 : Fin 1) := by
  obtain ⟨-, -, e2, e3, -, -⟩ := blockIndex0 t
  funext a; apply Fin.ext
  match a with
  | ⟨0, _⟩ =>
    show win0_1.index t (0 : Fin 2) * 2000 + 1 * p.val = win0_2.index t (0 : Fin 2) * 2000 + 1 * p.val
    omega
  | ⟨1, _⟩ =>
    show win0_1.index t (1 : Fin 2) * 1 + 1 * ((0 : Fin 1) : Nat) = ((0 : Fin 1) : Nat)
    omega

/-- So the features' block at (p, q) is the features' array at the output entry's place, -/
theorem in0_0_at (c : Dev nD) (t : Fin cfg0.N) (p : Fin 2000) (q : Fin 256) :
    iblk0 V c 0 t (ix2 p q)
      = V c (Pipeline.arrRef spec0 0) (((cfg0.win 2).blk t).view.emb (ix2 p q)) :=
  (read_in0_0 V c t (ix2 p q)).trans (congrArg (V c (Pipeline.arrRef spec0 0)) (emb_in0_0 t p q))

/-- and the column's block at (p, 0) is the column at the output entry's row. -/
theorem in0_1_at (c : Dev nD) (t : Fin cfg0.N) (p : Fin 2000) (q : Fin 256) :
    iblk0 V c 1 t (ix2 p (0 : Fin 1))
      = V c (Pipeline.arrRef spec0 1) (ix2 ((((cfg0.win 2).blk t).view.emb (ix2 p q)) 0) (0 : Fin 1)) :=
  (read_in0_1 V c t (ix2 p (0 : Fin 1))).trans (congrArg (V c (Pipeline.arrRef spec0 1)) (emb_in0_1 t p q))

/-- What point t writes back is block t of the row-scaled array. -/
theorem flushed0 (c : Dev nD) (t : Fin cfg0.N) :
    (dat0 (F := Ideal) V c).flushed 2 t = ((cfg0.win 2).blk t).view.read (Elt Ideal)
      (Cert.Spec.scaleRows (V c (Pipeline.arrRef spec0 0)) (Cert.Spec.col (V c (Pipeline.arrRef spec0 1)))) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S2000x1) zero_offsets]
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (ix2 p q) = _
  refine ((rowScale_entry0 _ _ p q).trans ?_).trans (read_out0 _ t (ix2 p q)).symm
  rw [scaleRows_col_apply]
  exact congrArg₂ (fun a b : EReal => a * b) (in0_0_at V c t p q) (in0_1_at V c t p q)

/-- An index of the output array is in point t's block iff each coordinate is in the block's range on its axis. -/
theorem mem_block0 (t : Fin cfg0.N) (i : S20000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v31).slice (win0_2.rect t)).set ↔ _
  rw [View.set_slice_whole, Rect.mem_set_unit]
  exact Iff.rfl

/-- Every index is in some point's block: row r lies in block r / 2000. -/
theorem cover0 (i : S20000x256.Idx) :
    ∃ t : Fin cfg0.N, (cfg0.win 2).flush t = true ∧ i ∈ ((cfg0.win 2).blk t).view.set := by
  have hi0 : (i 0).val < 20000 := (i 0).isLt
  have hi1 : (i 1).val < 256 := (i 1).isLt
  obtain ⟨t, ht⟩ : ∃ t : Fin cfg0.N, t.val = (i 0).val / 2000 :=
    ⟨⟨(i 0).val / 2000, by show _ < grid0.N; rw [N_0]; omega⟩, rfl⟩
  obtain ⟨-, -, -, -, e4, e5⟩ := blockIndex0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- THE OUTPUT ARRAY after region 0: the features with row p multiplied by the column's entry p. -/
theorem scale0 (c : Dev nD) :
    (dat0 (F := Ideal) V c).arrAt 2 cfg0.N
      = Cert.Spec.scaleRows (V c (Pipeline.arrRef spec0 0)) (Cert.Spec.col (V c (Pipeline.arrRef spec0 1))) :=
  (dat0 V c).arrAt_eq_of_cover 2 _ (fun t _ => flushed0 V c t) cover0

/-! ## Region 1: rows of the input features scaled by a column -/

/-- The body's stored value at entry (p, q): the feature x[p, q] times the row's number s[p, 0]. -/
theorem rowScale_entry1 (x : Vec Ideal S2000x256 .f32) (s : Vec Ideal S2000x1 .f32) (p : Fin 2000) (q : Fin 256) :
    k1_pay1 (F := Ideal) x s (ix2 p q) = x (ix2 p q) * s (ix2 p (0 : Fin 1)) := by
  unfold k1_pay1
  rw [mulf_apply, Cert.KeepdimsColumn.broadcastTo_a1_ab_apply, shapeCast_self]

/-- Block indices over the ten grid points: the features' block and the column's block move with the output's block,
    which at point t is block (t, 0). -/
theorem blockIndex1 : ∀ t : Fin cfg1.N,
    win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- An array read through the output's block at point t, at a block entry: the array at the entry's place in it. -/
theorem read_out1 (G : S20000x256.Idx → EReal) (t : Fin cfg1.N) (j : S2000x256.Idx) :
    ((cfg1.win 2).blk t).view.read (Elt Ideal) G j = G (((cfg1.win 2).blk t).view.emb j) := rfl

/-- The features' block at point t, at a block entry. -/
theorem read_in1_0 (c : Dev nD) (t : Fin cfg1.N) (j : S2000x256.Idx) :
    iblk1 V c 0 t j = V c (Pipeline.arrRef spec1 0) (((cfg1.win 0).blk t).view.emb j) := rfl

/-- The column's block at point t, at a block entry. -/
theorem read_in1_1 (c : Dev nD) (t : Fin cfg1.N) (j : S2000x1.Idx) :
    iblk1 V c 1 t j = V c (Pipeline.arrRef spec1 1) (((cfg1.win 1).blk t).view.emb j) := rfl

/-- Entry (p, q) of the features' block sits in the array where entry (p, q) of the output's block does:
    row 2000·t + p, column q. -/
theorem emb_in1_0 (t : Fin cfg1.N) (p : Fin 2000) (q : Fin 256) :
    ((cfg1.win 0).blk t).view.emb (ix2 p q) = ((cfg1.win 2).blk t).view.emb (ix2 p q) := by
  obtain ⟨e0, e1, -, -, -, -⟩ := blockIndex1 t
  funext a; apply Fin.ext
  match a with
  | ⟨0, _⟩ =>
    show win1_0.index t (0 : Fin 2) * 2000 + 1 * p.val = win1_2.index t (0 : Fin 2) * 2000 + 1 * p.val
    omega
  | ⟨1, _⟩ =>
    show win1_0.index t (1 : Fin 2) * 256 + 1 * q.val = win1_2.index t (1 : Fin 2) * 256 + 1 * q.val
    omega

/-- Entry (p, 0) of the column's block sits in the column at the row of entry (p, q) of the output's block. -/
theorem emb_in1_1 (t : Fin cfg1.N) (p : Fin 2000) (q : Fin 256) :
    ((cfg1.win 1).blk t).view.emb (ix2 p (0 : Fin 1))
      = ix2 ((((cfg1.win 2).blk t).view.emb (ix2 p q)) 0) (0 : Fin 1) := by
  obtain ⟨-, -, e2, e3, -, -⟩ := blockIndex1 t
  funext a; apply Fin.ext
  match a with
  | ⟨0, _⟩ =>
    show win1_1.index t (0 : Fin 2) * 2000 + 1 * p.val = win1_2.index t (0 : Fin 2) * 2000 + 1 * p.val
    omega
  | ⟨1, _⟩ =>
    show win1_1.index t (1 : Fin 2) * 1 + 1 * ((0 : Fin 1) : Nat) = ((0 : Fin 1) : Nat)
    omega

/-- So the features' block at (p, q) is the features' array at the output entry's place, -/
theorem in1_0_at (c : Dev nD) (t : Fin cfg1.N) (p : Fin 2000) (q : Fin 256) :
    iblk1 V c 0 t (ix2 p q)
      = V c (Pipeline.arrRef spec1 0) (((cfg1.win 2).blk t).view.emb (ix2 p q)) :=
  (read_in1_0 V c t (ix2 p q)).trans (congrArg (V c (Pipeline.arrRef spec1 0)) (emb_in1_0 t p q))

/-- and the column's block at (p, 0) is the column at the output entry's row. -/
theorem in1_1_at (c : Dev nD) (t : Fin cfg1.N) (p : Fin 2000) (q : Fin 256) :
    iblk1 V c 1 t (ix2 p (0 : Fin 1))
      = V c (Pipeline.arrRef spec1 1) (ix2 ((((cfg1.win 2).blk t).view.emb (ix2 p q)) 0) (0 : Fin 1)) :=
  (read_in1_1 V c t (ix2 p (0 : Fin 1))).trans (congrArg (V c (Pipeline.arrRef spec1 1)) (emb_in1_1 t p q))

/-- What point t writes back is block t of the row-scaled array. -/
theorem flushed1 (c : Dev nD) (t : Fin cfg1.N) :
    (dat1 (F := Ideal) V c).flushed 2 t = ((cfg1.win 2).blk t).view.read (Elt Ideal)
      (Cert.Spec.scaleRows (V c (Pipeline.arrRef spec1 0)) (Cert.Spec.col (V c (Pipeline.arrRef spec1 1)))) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S2000x1) zero_offsets]
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (ix2 p q) = _
  refine ((rowScale_entry1 _ _ p q).trans ?_).trans (read_out1 _ t (ix2 p q)).symm
  rw [scaleRows_col_apply]
  exact congrArg₂ (fun a b : EReal => a * b) (in1_0_at V c t p q) (in1_1_at V c t p q)

/-- An index of the output array is in point t's block iff each coordinate is in the block's range on its axis. -/
theorem mem_block1 (t : Fin cfg1.N) (i : S20000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v33).slice (win1_2.rect t)).set ↔ _
  rw [View.set_slice_whole, Rect.mem_set_unit]
  exact Iff.rfl

/-- Every index is in some point's block: row r lies in block r / 2000. -/
theorem cover1 (i : S20000x256.Idx) :
    ∃ t : Fin cfg1.N, (cfg1.win 2).flush t = true ∧ i ∈ ((cfg1.win 2).blk t).view.set := by
  have hi0 : (i 0).val < 20000 := (i 0).isLt
  have hi1 : (i 1).val < 256 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, e4, e5⟩ := blockIndex1 t
  refine ⟨t, flush1_2 t, ?_⟩
  rw [mem_block1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 256 ≤ (i 1).val ∧ (i 1).val < win1_2.index t (1 : Fin 2) * 256 + 256
    omega

/-- THE OUTPUT ARRAY after region 1: the features with row p multiplied by the column's entry p. -/
theorem scale1 (c : Dev nD) :
    (dat1 (F := Ideal) V c).arrAt 2 cfg1.N
      = Cert.Spec.scaleRows (V c (Pipeline.arrRef spec1 0)) (Cert.Spec.col (V c (Pipeline.arrRef spec1 1))) :=
  (dat1 V c).arrAt_eq_of_cover 2 _ (fun t _ => flushed1 V c t) cover1

/-! ## Region 3: rows of the first layer's output scaled by a column -/

/-- The body's stored value at entry (p, q): the feature x[p, q] times the row's number s[p, 0]. -/
theorem rowScale_entry3 (x : Vec Ideal S2000x256 .f32) (s : Vec Ideal S2000x1 .f32) (p : Fin 2000) (q : Fin 256) :
    k3_pay1 (F := Ideal) x s (ix2 p q) = x (ix2 p q) * s (ix2 p (0 : Fin 1)) := by
  unfold k3_pay1
  rw [mulf_apply, Cert.KeepdimsColumn.broadcastTo_a1_ab_apply, shapeCast_self, shapeCast_self]

/-- Block indices over the ten grid points: the features' block and the column's block move with the output's block,
    which at point t is block (t, 0). -/
theorem blockIndex3 : ∀ t : Fin cfg3.N,
    win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- An array read through the output's block at point t, at a block entry: the array at the entry's place in it. -/
theorem read_out3 (G : S20000x256.Idx → EReal) (t : Fin cfg3.N) (j : S2000x256.Idx) :
    ((cfg3.win 2).blk t).view.read (Elt Ideal) G j = G (((cfg3.win 2).blk t).view.emb j) := rfl

/-- The features' block at point t, at a block entry. -/
theorem read_in3_0 (c : Dev nD) (t : Fin cfg3.N) (j : S2000x256.Idx) :
    iblk3 V c 0 t j = V c (Pipeline.arrRef spec3 0) (((cfg3.win 0).blk t).view.emb j) := rfl

/-- The column's block at point t, at a block entry. -/
theorem read_in3_1 (c : Dev nD) (t : Fin cfg3.N) (j : S2000x1.Idx) :
    iblk3 V c 1 t j = V c (Pipeline.arrRef spec3 1) (((cfg3.win 1).blk t).view.emb j) := rfl

/-- Entry (p, q) of the features' block sits in the array where entry (p, q) of the output's block does:
    row 2000·t + p, column q. -/
theorem emb_in3_0 (t : Fin cfg3.N) (p : Fin 2000) (q : Fin 256) :
    ((cfg3.win 0).blk t).view.emb (ix2 p q) = ((cfg3.win 2).blk t).view.emb (ix2 p q) := by
  obtain ⟨e0, e1, -, -, -, -⟩ := blockIndex3 t
  funext a; apply Fin.ext
  match a with
  | ⟨0, _⟩ =>
    show win3_0.index t (0 : Fin 2) * 2000 + 1 * p.val = win3_2.index t (0 : Fin 2) * 2000 + 1 * p.val
    omega
  | ⟨1, _⟩ =>
    show win3_0.index t (1 : Fin 2) * 256 + 1 * q.val = win3_2.index t (1 : Fin 2) * 256 + 1 * q.val
    omega

/-- Entry (p, 0) of the column's block sits in the column at the row of entry (p, q) of the output's block. -/
theorem emb_in3_1 (t : Fin cfg3.N) (p : Fin 2000) (q : Fin 256) :
    ((cfg3.win 1).blk t).view.emb (ix2 p (0 : Fin 1))
      = ix2 ((((cfg3.win 2).blk t).view.emb (ix2 p q)) 0) (0 : Fin 1) := by
  obtain ⟨-, -, e2, e3, -, -⟩ := blockIndex3 t
  funext a; apply Fin.ext
  match a with
  | ⟨0, _⟩ =>
    show win3_1.index t (0 : Fin 2) * 2000 + 1 * p.val = win3_2.index t (0 : Fin 2) * 2000 + 1 * p.val
    omega
  | ⟨1, _⟩ =>
    show win3_1.index t (1 : Fin 2) * 1 + 1 * ((0 : Fin 1) : Nat) = ((0 : Fin 1) : Nat)
    omega

/-- So the features' block at (p, q) is the features' array at the output entry's place, -/
theorem in3_0_at (c : Dev nD) (t : Fin cfg3.N) (p : Fin 2000) (q : Fin 256) :
    iblk3 V c 0 t (ix2 p q)
      = V c (Pipeline.arrRef spec3 0) (((cfg3.win 2).blk t).view.emb (ix2 p q)) :=
  (read_in3_0 V c t (ix2 p q)).trans (congrArg (V c (Pipeline.arrRef spec3 0)) (emb_in3_0 t p q))

/-- and the column's block at (p, 0) is the column at the output entry's row. -/
theorem in3_1_at (c : Dev nD) (t : Fin cfg3.N) (p : Fin 2000) (q : Fin 256) :
    iblk3 V c 1 t (ix2 p (0 : Fin 1))
      = V c (Pipeline.arrRef spec3 1) (ix2 ((((cfg3.win 2).blk t).view.emb (ix2 p q)) 0) (0 : Fin 1)) :=
  (read_in3_1 V c t (ix2 p (0 : Fin 1))).trans (congrArg (V c (Pipeline.arrRef spec3 1)) (emb_in3_1 t p q))

/-- What point t writes back is block t of the row-scaled array. -/
theorem flushed3 (c : Dev nD) (t : Fin cfg3.N) :
    (dat3 (F := Ideal) V c).flushed 2 t = ((cfg3.win 2).blk t).view.read (Elt Ideal)
      (Cert.Spec.scaleRows (V c (Pipeline.arrRef spec3 0)) (Cert.Spec.col (V c (Pipeline.arrRef spec3 1)))) := by
  show (cfg3.win 2).cut (grid3.coords t) ((dat3 V c).after 2 t) = _
  rw [after3_2]
  unfold out3_2
  rw [View.canon_unit_zero zero_offsets]
  simp only [View.ld_unit_zero (S := S2000x256) zero_offsets, View.ld_unit_zero (S := S2000x1) zero_offsets]
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (ix2 p q) = _
  refine ((rowScale_entry3 _ _ p q).trans ?_).trans (read_out3 _ t (ix2 p q)).symm
  rw [scaleRows_col_apply]
  exact congrArg₂ (fun a b : EReal => a * b) (in3_0_at V c t p q) (in3_1_at V c t p q)

/-- An index of the output array is in point t's block iff each coordinate is in the block's range on its axis. -/
theorem mem_block3 (t : Fin cfg3.N) (i : S20000x256.Idx) :
    i ∈ ((cfg3.win 2).blk t).view.set ↔ ∀ a : Fin 2, win3_2.index t a * S2000x256.size a ≤ (i a).val
      ∧ (i a).val < win3_2.index t a * S2000x256.size a + S2000x256.size a := by
  show i ∈ ((View.whole main_v62).slice (win3_2.rect t)).set ↔ _
  rw [View.set_slice_whole, Rect.mem_set_unit]
  exact Iff.rfl

/-- Every index is in some point's block: row r lies in block r / 2000. -/
theorem cover3 (i : S20000x256.Idx) :
    ∃ t : Fin cfg3.N, (cfg3.win 2).flush t = true ∧ i ∈ ((cfg3.win 2).blk t).view.set := by
  have hi0 : (i 0).val < 20000 := (i 0).isLt
  have hi1 : (i 1).val < 256 := (i 1).isLt
  obtain ⟨t, ht⟩ : ∃ t : Fin cfg3.N, t.val = (i 0).val / 2000 :=
    ⟨⟨(i 0).val / 2000, by show _ < grid3.N; rw [N_3]; omega⟩, rfl⟩
  obtain ⟨-, -, -, -, e4, e5⟩ := blockIndex3 t
  refine ⟨t, flush3_2 t, ?_⟩
  rw [mem_block3]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 256 ≤ (i 1).val ∧ (i 1).val < win3_2.index t (1 : Fin 2) * 256 + 256
    omega

/-- THE OUTPUT ARRAY after region 3: the features with row p multiplied by the column's entry p. -/
theorem scale3 (c : Dev nD) :
    (dat3 (F := Ideal) V c).arrAt 2 cfg3.N
      = Cert.Spec.scaleRows (V c (Pipeline.arrRef spec3 0)) (Cert.Spec.col (V c (Pipeline.arrRef spec3 1))) :=
  (dat3 V c).arrAt_eq_of_cover 2 _ (fun t _ => flushed3 V c t) cover3

/-! ## Region 4: rows of the first layer's output scaled by a column -/

/-- The body's stored value at entry (p, q): the feature x[p, q] times the row's number s[p, 0]. -/
theorem rowScale_entry4 (x : Vec Ideal S2000x256 .f32) (s : Vec Ideal S2000x1 .f32) (p : Fin 2000) (q : Fin 256) :
    k4_pay1 (F := Ideal) x s (ix2 p q) = x (ix2 p q) * s (ix2 p (0 : Fin 1)) := by
  unfold k4_pay1
  rw [mulf_apply, Cert.KeepdimsColumn.broadcastTo_a1_ab_apply, shapeCast_self, shapeCast_self]

/-- Block indices over the ten grid points: the features' block and the column's block move with the output's block,
    which at point t is block (t, 0). -/
theorem blockIndex4 : ∀ t : Fin cfg4.N,
    win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- An array read through the output's block at point t, at a block entry: the array at the entry's place in it. -/
theorem read_out4 (G : S20000x256.Idx → EReal) (t : Fin cfg4.N) (j : S2000x256.Idx) :
    ((cfg4.win 2).blk t).view.read (Elt Ideal) G j = G (((cfg4.win 2).blk t).view.emb j) := rfl

/-- The features' block at point t, at a block entry. -/
theorem read_in4_0 (c : Dev nD) (t : Fin cfg4.N) (j : S2000x256.Idx) :
    iblk4 V c 0 t j = V c (Pipeline.arrRef spec4 0) (((cfg4.win 0).blk t).view.emb j) := rfl

/-- The column's block at point t, at a block entry. -/
theorem read_in4_1 (c : Dev nD) (t : Fin cfg4.N) (j : S2000x1.Idx) :
    iblk4 V c 1 t j = V c (Pipeline.arrRef spec4 1) (((cfg4.win 1).blk t).view.emb j) := rfl

/-- Entry (p, q) of the features' block sits in the array where entry (p, q) of the output's block does:
    row 2000·t + p, column q. -/
theorem emb_in4_0 (t : Fin cfg4.N) (p : Fin 2000) (q : Fin 256) :
    ((cfg4.win 0).blk t).view.emb (ix2 p q) = ((cfg4.win 2).blk t).view.emb (ix2 p q) := by
  obtain ⟨e0, e1, -, -, -, -⟩ := blockIndex4 t
  funext a; apply Fin.ext
  match a with
  | ⟨0, _⟩ =>
    show win4_0.index t (0 : Fin 2) * 2000 + 1 * p.val = win4_2.index t (0 : Fin 2) * 2000 + 1 * p.val
    omega
  | ⟨1, _⟩ =>
    show win4_0.index t (1 : Fin 2) * 256 + 1 * q.val = win4_2.index t (1 : Fin 2) * 256 + 1 * q.val
    omega

/-- Entry (p, 0) of the column's block sits in the column at the row of entry (p, q) of the output's block. -/
theorem emb_in4_1 (t : Fin cfg4.N) (p : Fin 2000) (q : Fin 256) :
    ((cfg4.win 1).blk t).view.emb (ix2 p (0 : Fin 1))
      = ix2 ((((cfg4.win 2).blk t).view.emb (ix2 p q)) 0) (0 : Fin 1) := by
  obtain ⟨-, -, e2, e3, -, -⟩ := blockIndex4 t
  funext a; apply Fin.ext
  match a with
  | ⟨0, _⟩ =>
    show win4_1.index t (0 : Fin 2) * 2000 + 1 * p.val = win4_2.index t (0 : Fin 2) * 2000 + 1 * p.val
    omega
  | ⟨1, _⟩ =>
    show win4_1.index t (1 : Fin 2) * 1 + 1 * ((0 : Fin 1) : Nat) = ((0 : Fin 1) : Nat)
    omega

/-- So the features' block at (p, q) is the features' array at the output entry's place, -/
theorem in4_0_at (c : Dev nD) (t : Fin cfg4.N) (p : Fin 2000) (q : Fin 256) :
    iblk4 V c 0 t (ix2 p q)
      = V c (Pipeline.arrRef spec4 0) (((cfg4.win 2).blk t).view.emb (ix2 p q)) :=
  (read_in4_0 V c t (ix2 p q)).trans (congrArg (V c (Pipeline.arrRef spec4 0)) (emb_in4_0 t p q))

/-- and the column's block at (p, 0) is the column at the output entry's row. -/
theorem in4_1_at (c : Dev nD) (t : Fin cfg4.N) (p : Fin 2000) (q : Fin 256) :
    iblk4 V c 1 t (ix2 p (0 : Fin 1))
      = V c (Pipeline.arrRef spec4 1) (ix2 ((((cfg4.win 2).blk t).view.emb (ix2 p q)) 0) (0 : Fin 1)) :=
  (read_in4_1 V c t (ix2 p (0 : Fin 1))).trans (congrArg (V c (Pipeline.arrRef spec4 1)) (emb_in4_1 t p q))

/-- What point t writes back is block t of the row-scaled array. -/
theorem flushed4 (c : Dev nD) (t : Fin cfg4.N) :
    (dat4 (F := Ideal) V c).flushed 2 t = ((cfg4.win 2).blk t).view.read (Elt Ideal)
      (Cert.Spec.scaleRows (V c (Pipeline.arrRef spec4 0)) (Cert.Spec.col (V c (Pipeline.arrRef spec4 1)))) := by
  show (cfg4.win 2).cut (grid4.coords t) ((dat4 V c).after 2 t) = _
  rw [after4_2]
  unfold out4_2
  rw [View.canon_unit_zero zero_offsets]
  simp only [View.ld_unit_zero (S := S2000x256) zero_offsets, View.ld_unit_zero (S := S2000x1) zero_offsets]
  funext j
  obtain ⟨p, q, rfl⟩ : ∃ (p : Fin 2000) (q : Fin 256), j = ix2 p q := ⟨j 0, j 1, eq_ix2 j⟩
  show k4_pay1 (F := Ideal) (iblk4 V c 0 t) (iblk4 V c 1 t) (ix2 p q) = _
  refine ((rowScale_entry4 _ _ p q).trans ?_).trans (read_out4 _ t (ix2 p q)).symm
  rw [scaleRows_col_apply]
  exact congrArg₂ (fun a b : EReal => a * b) (in4_0_at V c t p q) (in4_1_at V c t p q)

/-- An index of the output array is in point t's block iff each coordinate is in the block's range on its axis. -/
theorem mem_block4 (t : Fin cfg4.N) (i : S20000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v64).slice (win4_2.rect t)).set ↔ _
  rw [View.set_slice_whole, Rect.mem_set_unit]
  exact Iff.rfl

/-- Every index is in some point's block: row r lies in block r / 2000. -/
theorem cover4 (i : S20000x256.Idx) :
    ∃ t : Fin cfg4.N, (cfg4.win 2).flush t = true ∧ i ∈ ((cfg4.win 2).blk t).view.set := by
  have hi0 : (i 0).val < 20000 := (i 0).isLt
  have hi1 : (i 1).val < 256 := (i 1).isLt
  obtain ⟨t, ht⟩ : ∃ t : Fin cfg4.N, t.val = (i 0).val / 2000 :=
    ⟨⟨(i 0).val / 2000, by show _ < grid4.N; rw [N_4]; omega⟩, rfl⟩
  obtain ⟨-, -, -, -, e4, e5⟩ := blockIndex4 t
  refine ⟨t, flush4_2 t, ?_⟩
  rw [mem_block4]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 256 ≤ (i 1).val ∧ (i 1).val < win4_2.index t (1 : Fin 2) * 256 + 256
    omega

/-- THE OUTPUT ARRAY after region 4: the features with row p multiplied by the column's entry p. -/
theorem scale4 (c : Dev nD) :
    (dat4 (F := Ideal) V c).arrAt 2 cfg4.N
      = Cert.Spec.scaleRows (V c (Pipeline.arrRef spec4 0)) (Cert.Spec.col (V c (Pipeline.arrRef spec4 1))) :=
  (dat4 V c).arrAt_eq_of_cover 2 _ (fun t _ => flushed4 V c t) cover4

end Cert.KernelIdeal.RegionValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.MixPayload.lean ====
/-
  The body of the combine kernel at an entry (p, q) of its [2000, 256] block, over the extended reals: the two
  aggregates' rows scaled by their columns, each multiplied into its weight (a matrix product into zeros is the
  sum over k), the two products added, then the two bias rows, then — in the first layer only — the maximum
  with zero.  Changes of float format are the identity here.
-/
import proofs.«169953_j9345848836755_1_alg».proof.Proof.Gen.KernelIdeal.Skeleton
import proofs.«169953_j9345848836755_1_alg».proof.Proof.LibMatmulNN
import proofs.«169953_j9345848836755_1_alg».proof.Proof.LibKeepdimsColumn
import Idealize.ShloMosaic.Lib.Pipeline.Value
import Idealize.ShloMosaic.Lib.ValueIdx

noncomputable section

namespace Cert.KernelIdeal.MixPayload

open Cert.KernelIdeal Cert.KernelIdeal.Gen
open Idealize.ShloMosaic Idealize.ShloMosaic.ValueIdx

/-- The kernel's matrix product is the plain one. -/
theorem dot_plain : dot_S2000x256_S256x256_S2000x256_1_0_0_1_n_n = DotDims.plain 2000 256 256 := rfl

/-- A bias row repeated down the block reads, at (p, q), the row's entry q. -/
theorem bias_apply (b : FVec Ideal S1x256 .f32) (p : Fin 2000) (q : Fin 256) :
    broadcastTo S2000x256 b broadcasts_S1x256_S2000x256 (ix2 p q) = b (ix2 (0 : Fin 1) q) := by
  refine broadcastTo_apply b broadcasts_S1x256_S2000x256 (ix2 p q) (ix2 (0 : Fin 1) q) fun ax => ?_
  match ax with
  | ⟨0, _⟩ => rfl
  | ⟨1, _⟩ => rfl

/-- A column repeated along the features reads, at (p, k), the column's entry p. -/
theorem column_apply (s : FVec Ideal S2000x1 .f32) (p : Fin 2000) (k : Fin 256) :
    broadcastTo S2000x256 s broadcasts_S2000x1_S2000x256 (ix2 p k) = s (ix2 p (0 : Fin 1)) :=
  Cert.KeepdimsColumn.broadcastTo_a1_ab_apply (a := 2000) (b := 256) s broadcasts_S2000x1_S2000x256 p k

/-- The sum of the two products and the two biases at (p, q), common to both layers. -/
theorem body_sum_apply (x0 : FVec Ideal S2000x256 .f32) (x2 : FVec Ideal S2000x1 .f32) (x7 : FVec Ideal S2000x256 .f32) (x9 : FVec Ideal S2000x1 .f32)
    (w14 : FVec Ideal S256x256 .bf16) (w17 : FVec Ideal S256x256 .bf16) (b21 : FVec Ideal S1x256 .f32) (b25 : FVec Ideal S1x256 .f32)
    (p : Fin 2000) (q : Fin 256) :
    addf (addf (addf
        (matmul dot_S2000x256_S256x256_S2000x256_1_0_0_1_n_n none
          (truncf .bf16 (mulf x0 (broadcastTo S2000x256 x2 broadcasts_S2000x1_S2000x256)) bitsLt_bf16_f32) w14
          (constant (F := Ideal) S2000x256 .f32 0x00000000#32))
        (matmul dot_S2000x256_S256x256_S2000x256_1_0_0_1_n_n none
          (truncf .bf16 (mulf x7 (broadcastTo S2000x256 x9 broadcasts_S2000x1_S2000x256)) bitsLt_bf16_f32) w17
          (constant (F := Ideal) S2000x256 .f32 0x00000000#32)))
        (broadcastTo S2000x256 b21 broadcasts_S1x256_S2000x256))
        (broadcastTo S2000x256 b25 broadcasts_S1x256_S2000x256) (ix2 p q)
      = ((((∑ k : Fin 256, (x0 (ix2 p k) * x2 (ix2 p (0 : Fin 1))) * w14 (ix2 k q)) + (∑ k : Fin 256, (x7 (ix2 p k) * x9 (ix2 p (0 : Fin 1))) * w17 (ix2 k q))) + b21 (ix2 (0 : Fin 1) q)) + b25 (ix2 (0 : Fin 1) q)) := by
  rw [addf_apply, addf_apply, addf_apply, bias_apply, bias_apply]
  rw [show matmul dot_S2000x256_S256x256_S2000x256_1_0_0_1_n_n none
          (truncf .bf16 (mulf x0 (broadcastTo S2000x256 x2 broadcasts_S2000x1_S2000x256)) bitsLt_bf16_f32) w14
          (constant (F := Ideal) S2000x256 .f32 0x00000000#32) (ix2 p q)
        = (∑ k : Fin 256, (x0 (ix2 p k) * x2 (ix2 p (0 : Fin 1))) * w14 (ix2 k q)) from
      (Cert.MatmulNN.matmul_zero_apply _ dot_plain none _ w14 p q).trans
        (Finset.sum_congr rfl fun k _ => by rw [truncf_apply, mulf_apply, column_apply])]
  rw [show matmul dot_S2000x256_S256x256_S2000x256_1_0_0_1_n_n none
          (truncf .bf16 (mulf x7 (broadcastTo S2000x256 x9 broadcasts_S2000x1_S2000x256)) bitsLt_bf16_f32) w17
          (constant (F := Ideal) S2000x256 .f32 0x00000000#32) (ix2 p q)
        = (∑ k : Fin 256, (x7 (ix2 p k) * x9 (ix2 p (0 : Fin 1))) * w17 (ix2 k q)) from
      (Cert.MatmulNN.matmul_zero_apply _ dot_plain none _ w17 p q).trans
        (Finset.sum_congr rfl fun k _ => by rw [truncf_apply, mulf_apply, column_apply])]

/-- The first layer's body at (p, q): the sum, clamped below at zero. -/
theorem k2_pay1_apply (x0 : Vec Ideal S2000x256 .f32) (x2 : Vec Ideal S2000x1 .f32) (x7 : Vec Ideal S2000x256 .f32) (x9 : Vec Ideal S2000x1 .f32)
    (w14 : Vec Ideal S256x256 .bf16) (w17 : Vec Ideal S256x256 .bf16) (b21 : Vec Ideal S1x256 .f32) (b25 : Vec Ideal S1x256 .f32)
    (p : Fin 2000) (q : Fin 256) :
    k2_pay1 (F := Ideal) x0 x2 x7 x9 w14 w17 b21 b25 (ix2 p q)
      = max ((((∑ k : Fin 256, (x0 (ix2 p k) * x2 (ix2 p (0 : Fin 1))) * w14 (ix2 k q)) + (∑ k : Fin 256, (x7 (ix2 p k) * x9 (ix2 p (0 : Fin 1))) * w17 (ix2 k q))) + b21 (ix2 (0 : Fin 1) q)) + b25 (ix2 (0 : Fin 1) q)) (Ideal.ofBits .f32 0x00000000#32) := by
  unfold k2_pay1
  simp only [shapeCast_self]
  rw [maximumf_apply, body_sum_apply]
  rfl

/-- The second layer's body at (p, q): the sum. -/
theorem k5_pay1_apply (x0 : Vec Ideal S2000x256 .f32) (x2 : Vec Ideal S2000x1 .f32) (x7 : Vec Ideal S2000x256 .f32) (x9 : Vec Ideal S2000x1 .f32)
    (w14 : Vec Ideal S256x256 .bf16) (w17 : Vec Ideal S256x256 .bf16) (b21 : Vec Ideal S1x256 .f32) (b25 : Vec Ideal S1x256 .f32)
    (p : Fin 2000) (q : Fin 256) :
    k5_pay1 (F := Ideal) x0 x2 x7 x9 w14 w17 b21 b25 (ix2 p q)
      = ((((∑ k : Fin 256, (x0 (ix2 p k) * x2 (ix2 p (0 : Fin 1))) * w14 (ix2 k q)) + (∑ k : Fin 256, (x7 (ix2 p k) * x9 (ix2 p (0 : Fin 1))) * w17 (ix2 k q))) + b21 (ix2 (0 : Fin 1) q)) + b25 (ix2 (0 : Fin 1) q)) := by
  unfold k5_pay1
  simp only [shapeCast_self]
  exact body_sum_apply x0 x2 x7 x9 w14 w17 b21 b25 p q

end Cert.KernelIdeal.MixPayload

end
-- ==== Proof.RegionMix.lean ====
/-
  The two combine regions in closed form, over the extended reals.

  Each of these regions walks ten blocks of 2000 rows. At block t it takes the matching blocks of two [20000, 256]
  aggregates A_S, A_U and of two [20000, 1] columns d_S, d_U, the whole [256, 256] weights W_S, W_U and the whole
  [1, 256] bias rows b_S, b_U, and writes the block of

      out[r, q] = ((Σ_k (A_S[r, k] · d_S[r, 0]) · W_S[k, q] + Σ_k (A_U[r, k] · d_U[r, 0]) · W_U[k, q]) + b_S[0, q]) + b_U[0, q],

  in the first layer clamped below at zero. The ten blocks tile the array and block t of the result depends only on
  block t of the aggregates and columns, so the array the region leaves is that one function of the eight arrays: the
  specification's `mix` (under `clamp` in the first layer). Stated for any contents of the buffers at the region's
  entry.
-/
import proofs.«169953_j9345848836755_1_alg».proof.Proof.Gen.KernelIdeal.Frame
import proofs.«169953_j9345848836755_1_alg».proof.Proof.Spec
import proofs.«169953_j9345848836755_1_alg».proof.Proof.MixPayload
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

/-- The zero offsets of a whole-block access. -/
theorem whole_block_offsets : (![0, 0] : Fin 2 → Nat) = fun _ => 0 := funext fun a => by fin_cases a <;> rfl

/-- The dense half of a layer at an index, with the columns and rows read as the arrays they are kept in. -/
theorem mix_apply (A0 A1 : Cert.Spec.SN.Idx → EReal) (A2 A3 : Cert.Spec.SC.Idx → EReal)
    (A4 A6 : Cert.Spec.SW.Idx → EReal) (A5 A7 : Cert.Spec.SR.Idx → EReal) (i : Cert.Spec.SN.Idx) :
    Cert.Spec.mix A0 A1 (Cert.Spec.col A2) (Cert.Spec.col A3) A4 A6 (Cert.Spec.row A5) (Cert.Spec.row A7) i
      = (((∑ k : Fin 256, (A0 (ix2 (i 0) k) * A2 (ix2 (i 0) (0 : Fin 1))) * A4 (ix2 k (i 1)))
            + (∑ k : Fin 256, (A1 (ix2 (i 0) k) * A3 (ix2 (i 0) (0 : Fin 1))) * A6 (ix2 k (i 1))))
          + A5 (ix2 (0 : Fin 1) (i 1))) + A7 (ix2 (0 : Fin 1) (i 1)) := rfl

/-- The same, clamped below at zero. -/
theorem clamp_mix_apply (A0 A1 : Cert.Spec.SN.Idx → EReal) (A2 A3 : Cert.Spec.SC.Idx → EReal)
    (A4 A6 : Cert.Spec.SW.Idx → EReal) (A5 A7 : Cert.Spec.SR.Idx → EReal) (i : Cert.Spec.SN.Idx) :
    Cert.Spec.clamp (Cert.Spec.mix A0 A1 (Cert.Spec.col A2) (Cert.Spec.col A3) A4 A6 (Cert.Spec.row A5) (Cert.Spec.row A7)) i
      = max ((((∑ k : Fin 256, (A0 (ix2 (i 0) k) * A2 (ix2 (i 0) (0 : Fin 1))) * A4 (ix2 k (i 1)))
            + (∑ k : Fin 256, (A1 (ix2 (i 0) k) * A3 (ix2 (i 0) (0 : Fin 1))) * A6 (ix2 k (i 1))))
          + A5 (ix2 (0 : Fin 1) (i 1))) + A7 (ix2 (0 : Fin 1) (i 1))) (Ideal.ofBits .f32 0x00000000#32) := rfl

variable (V : (c : Dev nD) → (b : Ref sig .tc) → Buf (Elt Ideal) ((c : Thread nD τ).loc b))

/-! ## Region 2: the dense half of the first layer, clamped below at zero -/

/-- Block indices over the ten grid points: the two aggregates' blocks and the two columns' blocks move with the
    output's block, which at point t is block (t, 0); the weights and the bias rows stay at block (0, 0). -/
theorem blockIndex2 : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = win2_8.index t (0 : Fin 2) ∧ win2_2.index t (1 : Fin 2) = 0
    ∧ win2_3.index t (0 : Fin 2) = win2_8.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- An array read through the output's block at point t, at a block entry: the array at the entry's place in it. -/
theorem read_out2 (G : S20000x256.Idx → EReal) (t : Fin cfg2.N) (j : S2000x256.Idx) :
    ((cfg2.win 8).blk t).view.read (Elt Ideal) G j = G (((cfg2.win 8).blk t).view.emb j) := rfl

/-- An aggregate's block at (p, k) is the aggregate at the output entry's row, column k. -/
theorem agg2_0_at (c : Dev nD) (t : Fin cfg2.N) (p : Fin 2000) (q k : Fin 256) :
    iblk2 V c 0 t (ix2 p k)
      = V c (Pipeline.arrRef spec2 0) (ix2 ((((cfg2.win 8).blk t).view.emb (ix2 p q)) 0) k) := by
  obtain ⟨e, e', -⟩ := blockIndex2 t
  show V c (Pipeline.arrRef spec2 0) (((cfg2.win 0).blk t).view.emb (ix2 p k)) = _
  refine congrArg (V c (Pipeline.arrRef spec2 0)) (funext fun a => Fin.ext ?_)
  match a with
  | ⟨0, _⟩ =>
    show win2_0.index t (0 : Fin 2) * 2000 + 1 * p.val = win2_8.index t (0 : Fin 2) * 2000 + 1 * p.val
    omega
  | ⟨1, _⟩ =>
    show win2_0.index t (1 : Fin 2) * 256 + 1 * k.val = k.val
    omega

theorem agg2_1_at (c : Dev nD) (t : Fin cfg2.N) (p : Fin 2000) (q k : Fin 256) :
    iblk2 V c 1 t (ix2 p k)
      = V c (Pipeline.arrRef spec2 1) (ix2 ((((cfg2.win 8).blk t).view.emb (ix2 p q)) 0) k) := by
  obtain ⟨-, -, e, e', -⟩ := blockIndex2 t
  show V c (Pipeline.arrRef spec2 1) (((cfg2.win 1).blk t).view.emb (ix2 p k)) = _
  refine congrArg (V c (Pipeline.arrRef spec2 1)) (funext fun a => Fin.ext ?_)
  match a with
  | ⟨0, _⟩ =>
    show win2_1.index t (0 : Fin 2) * 2000 + 1 * p.val = win2_8.index t (0 : Fin 2) * 2000 + 1 * p.val
    omega
  | ⟨1, _⟩ =>
    show win2_1.index t (1 : Fin 2) * 256 + 1 * k.val = k.val
    omega

/-- A column's block at (p, 0) is the column at the output entry's row. -/
theorem col2_2_at (c : Dev nD) (t : Fin cfg2.N) (p : Fin 2000) (q : Fin 256) :
    iblk2 V c 2 t (ix2 p (0 : Fin 1))
      = V c (Pipeline.arrRef spec2 2) (ix2 ((((cfg2.win 8).blk t).view.emb (ix2 p q)) 0) (0 : Fin 1)) := by
  obtain ⟨-, -, -, -, e, e', -⟩ := blockIndex2 t
  show V c (Pipeline.arrRef spec2 2) (((cfg2.win 2).blk t).view.emb (ix2 p (0 : Fin 1))) = _
  refine congrArg (V c (Pipeline.arrRef spec2 2)) (funext fun a => Fin.ext ?_)
  match a with
  | ⟨0, _⟩ =>
    show win2_2.index t (0 : Fin 2) * 2000 + 1 * p.val = win2_8.index t (0 : Fin 2) * 2000 + 1 * p.val
    omega
  | ⟨1, _⟩ =>
    show win2_2.index t (1 : Fin 2) * 1 + 1 * ((0 : Fin 1) : Nat) = ((0 : Fin 1) : Nat)
    omega

theorem col2_3_at (c : Dev nD) (t : Fin cfg2.N) (p : Fin 2000) (q : Fin 256) :
    iblk2 V c 3 t (ix2 p (0 : Fin 1))
      = V c (Pipeline.arrRef spec2 3) (ix2 ((((cfg2.win 8).blk t).view.emb (ix2 p q)) 0) (0 : Fin 1)) := by
  obtain ⟨-, -, -, -, -, -, e, e', -⟩ := blockIndex2 t
  show V c (Pipeline.arrRef spec2 3) (((cfg2.win 3).blk t).view.emb (ix2 p (0 : Fin 1))) = _
  refine congrArg (V c (Pipeline.arrRef spec2 3)) (funext fun a => Fin.ext ?_)
  match a with
  | ⟨0, _⟩ =>
    show win2_3.index t (0 : Fin 2) * 2000 + 1 * p.val = win2_8.index t (0 : Fin 2) * 2000 + 1 * p.val
    omega
  | ⟨1, _⟩ =>
    show win2_3.index t (1 : Fin 2) * 1 + 1 * ((0 : Fin 1) : Nat) = ((0 : Fin 1) : Nat)
    omega

/-- A weight matrix's one block at (k, q) is the matrix at row k and the output entry's column. -/
theorem weight2_4_at (c : Dev nD) (t : Fin cfg2.N) (p : Fin 2000) (q k : Fin 256) :
    iblk2 V c 4 t (ix2 k q)
      = V c (Pipeline.arrRef spec2 4) (ix2 k ((((cfg2.win 8).blk t).view.emb (ix2 p q)) 1)) := by
  obtain ⟨-, -, -, -, -, -, -, -, e, e', -, -, -, -, -, -, -, e8⟩ := blockIndex2 t
  show V c (Pipeline.arrRef spec2 4) (((cfg2.win 4).blk t).view.emb (ix2 k q)) = _
  refine congrArg (V c (Pipeline.arrRef spec2 4)) (funext fun a => Fin.ext ?_)
  match a with
  | ⟨0, _⟩ =>
    show win2_4.index t (0 : Fin 2) * 256 + 1 * k.val = k.val
    omega
  | ⟨1, _⟩ =>
    show win2_4.index t (1 : Fin 2) * 256 + 1 * q.val = win2_8.index t (1 : Fin 2) * 256 + 1 * q.val
    omega

theorem weight2_6_at (c : Dev nD) (t : Fin cfg2.N) (p : Fin 2000) (q k : Fin 256) :
    iblk2 V c 6 t (ix2 k q)
      = V c (Pipeline.arrRef spec2 6) (ix2 k ((((cfg2.win 8).blk t).view.emb (ix2 p q)) 1)) := by
  obtain ⟨-, -, -, -, -, -, -, -, -, -, -, -, e, e', -, -, -, e8⟩ := blockIndex2 t
  show V c (Pipeline.arrRef spec2 6) (((cfg2.win 6).blk t).view.emb (ix2 k q)) = _
  refine congrArg (V c (Pipeline.arrRef spec2 6)) (funext fun a => Fin.ext ?_)
  match a with
  | ⟨0, _⟩ =>
    show win2_6.index t (0 : Fin 2) * 256 + 1 * k.val = k.val
    omega
  | ⟨1, _⟩ =>
    show win2_6.index t (1 : Fin 2) * 256 + 1 * q.val = win2_8.index t (1 : Fin 2) * 256 + 1 * q.val
    omega

/-- A bias row's one block at (0, q) is the row at the output entry's column. -/
theorem bias2_5_at (c : Dev nD) (t : Fin cfg2.N) (p : Fin 2000) (q : Fin 256) :
    iblk2 V c 5 t (ix2 (0 : Fin 1) q)
      = V c (Pipeline.arrRef spec2 5) (ix2 (0 : Fin 1) ((((cfg2.win 8).blk t).view.emb (ix2 p q)) 1)) := by
  obtain ⟨-, -, -, -, -, -, -, -, -, -, e, e', -, -, -, -, -, e8⟩ := blockIndex2 t
  show V c (Pipeline.arrRef spec2 5) (((cfg2.win 5).blk t).view.emb (ix2 (0 : Fin 1) q)) = _
  refine congrArg (V c (Pipeline.arrRef spec2 5)) (funext fun a => Fin.ext ?_)
  match a with
  | ⟨0, _⟩ =>
    show win2_5.index t (0 : Fin 2) * 1 + 1 * ((0 : Fin 1) : Nat) = ((0 : Fin 1) : Nat)
    omega
  | ⟨1, _⟩ =>
    show win2_5.index t (1 : Fin 2) * 256 + 1 * q.val = win2_8.index t (1 : Fin 2) * 256 + 1 * q.val
    omega

theorem bias2_7_at (c : Dev nD) (t : Fin cfg2.N) (p : Fin 2000) (q : Fin 256) :
    iblk2 V c 7 t (ix2 (0 : Fin 1) q)
      = V c (Pipeline.arrRef spec2 7) (ix2 (0 : Fin 1) ((((cfg2.win 8).blk t).view.emb (ix2 p q)) 1)) := by
  obtain ⟨-, -, -, -, -, -, -, -, -, -, -, -, -, -, e, e', -, e8⟩ := blockIndex2 t
  show V c (Pipeline.arrRef spec2 7) (((cfg2.win 7).blk t).view.emb (ix2 (0 : Fin 1) q)) = _
  refine congrArg (V c (Pipeline.arrRef spec2 7)) (funext fun a => Fin.ext ?_)
  match a with
  | ⟨0, _⟩ =>
    show win2_7.index t (0 : Fin 2) * 1 + 1 * ((0 : Fin 1) : Nat) = ((0 : Fin 1) : Nat)
    omega
  | ⟨1, _⟩ =>
    show win2_7.index t (1 : Fin 2) * 256 + 1 * q.val = win2_8.index t (1 : Fin 2) * 256 + 1 * q.val
    omega

/-- What point t writes back is block t of the clamped dense half of the layer. -/
theorem flushed2 (c : Dev nD) (t : Fin cfg2.N) :
    (dat2 (F := Ideal) V c).flushed 8 t = ((cfg2.win 8).blk t).view.read (Elt Ideal)
      (Cert.Spec.clamp (Cert.Spec.mix (V c (Pipeline.arrRef spec2 0)) (V c (Pipeline.arrRef spec2 1))
        (Cert.Spec.col (V c (Pipeline.arrRef spec2 2))) (Cert.Spec.col (V c (Pipeline.arrRef spec2 3)))
        (V c (Pipeline.arrRef spec2 4)) (V c (Pipeline.arrRef spec2 6))
        (Cert.Spec.row (V c (Pipeline.arrRef spec2 5))) (Cert.Spec.row (V c (Pipeline.arrRef spec2 7))))) := by
  show (cfg2.win 8).cut (grid2.coords t) ((dat2 V c).after 8 t) = _
  rw [after2_8]
  unfold out2_8
  rw [View.canon_unit_zero whole_block_offsets]
  simp only [View.ld_unit_zero (S := S2000x256) whole_block_offsets, View.ld_unit_zero (S := S2000x1) whole_block_offsets,
    View.ld_unit_zero (S := S256x256) whole_block_offsets, View.ld_unit_zero (S := S1x256) whole_block_offsets]
  funext j
  obtain ⟨p, q, rfl⟩ : ∃ (p : Fin 2000) (q : Fin 256), j = ix2 p q := ⟨j 0, j 1, eq_ix2 j⟩
  show k2_pay1 (F := Ideal) (iblk2 V c 0 t) (iblk2 V c 2 t) (iblk2 V c 1 t) (iblk2 V c 3 t)
      (iblk2 V c 4 t) (iblk2 V c 6 t) (iblk2 V c 5 t) (iblk2 V c 7 t) (ix2 p q) = _
  refine ((Cert.KernelIdeal.MixPayload.k2_pay1_apply _ _ _ _ _ _ _ _ p q).trans ?_).trans (read_out2 _ t (ix2 p q)).symm
  rw [clamp_mix_apply]
  refine congrArg (fun x : EReal => max x (Ideal.ofBits .f32 0x00000000#32)) ?_
  refine congrArg₂ (fun a b : EReal => a + b) (congrArg₂ (fun a b : EReal => a + b)
    (congrArg₂ (fun a b : EReal => a + b) (Finset.sum_congr rfl fun k _ => ?_) (Finset.sum_congr rfl fun k _ => ?_))
    (bias2_5_at V c t p q)) (bias2_7_at V c t p q)
  · exact congrArg₂ (fun a b : EReal => a * b)
      (congrArg₂ (fun a b : EReal => a * b) (agg2_0_at V c t p q k) (col2_2_at V c t p q)) (weight2_4_at V c t p q k)
  · exact congrArg₂ (fun a b : EReal => a * b)
      (congrArg₂ (fun a b : EReal => a * b) (agg2_1_at V c t p q k) (col2_3_at V c t p q)) (weight2_6_at V c t p q k)

/-- An index of the output array is in point t's block iff each coordinate is in the block's range on its axis. -/
theorem mem_block2 (t : Fin cfg2.N) (i : S20000x256.Idx) :
    i ∈ ((cfg2.win 8).blk t).view.set ↔ ∀ a : Fin 2, win2_8.index t a * S2000x256.size a ≤ (i a).val
      ∧ (i a).val < win2_8.index t a * S2000x256.size a + S2000x256.size a := by
  show i ∈ ((View.whole main_v60).slice (win2_8.rect t)).set ↔ _
  rw [View.set_slice_whole, Rect.mem_set_unit]
  exact Iff.rfl

/-- Every index is in some point's block: row r lies in block r / 2000. -/
theorem cover2 (i : S20000x256.Idx) :
    ∃ t : Fin cfg2.N, (cfg2.win 8).flush t = true ∧ i ∈ ((cfg2.win 8).blk t).view.set := by
  have hi0 : (i 0).val < 20000 := (i 0).isLt
  have hi1 : (i 1).val < 256 := (i 1).isLt
  obtain ⟨t, ht⟩ : ∃ t : Fin cfg2.N, t.val = (i 0).val / 2000 :=
    ⟨⟨(i 0).val / 2000, by show _ < grid2.N; rw [N_2]; omega⟩, rfl⟩
  obtain ⟨-, -, -, -, -, -, -, -, -, -, -, -, -, -, -, -, e4, e5⟩ := blockIndex2 t
  refine ⟨t, flush2_8 t, ?_⟩
  rw [mem_block2]
  intro a
  match a with
  | ⟨0, _⟩ =>
    show win2_8.index t (0 : Fin 2) * 2000 ≤ (i 0).val ∧ (i 0).val < win2_8.index t (0 : Fin 2) * 2000 + 2000
    omega
  | ⟨1, _⟩ =>
    show win2_8.index t (1 : Fin 2) * 256 ≤ (i 1).val ∧ (i 1).val < win2_8.index t (1 : Fin 2) * 256 + 256
    omega

/-- THE OUTPUT ARRAY after region 2: the two degree-scaled aggregates times their weights, added, plus the two
    biases, clamped below at zero. -/
theorem mix2 (c : Dev nD) :
    (dat2 (F := Ideal) V c).arrAt 8 cfg2.N
      = Cert.Spec.clamp (Cert.Spec.mix (V c (Pipeline.arrRef spec2 0)) (V c (Pipeline.arrRef spec2 1))
        (Cert.Spec.col (V c (Pipeline.arrRef spec2 2))) (Cert.Spec.col (V c (Pipeline.arrRef spec2 3)))
        (V c (Pipeline.arrRef spec2 4)) (V c (Pipeline.arrRef spec2 6))
        (Cert.Spec.row (V c (Pipeline.arrRef spec2 5))) (Cert.Spec.row (V c (Pipeline.arrRef spec2 7)))) :=
  (dat2 V c).arrAt_eq_of_cover 8 _ (fun t _ => flushed2 V c t) cover2

/-! ## Region 5: the dense half of the second layer -/

/-- Block indices over the ten grid points: the two aggregates' blocks and the two columns' blocks move with the
    output's block, which at point t is block (t, 0); the weights and the bias rows stay at block (0, 0). -/
theorem blockIndex5 : ∀ t : Fin cfg5.N,
    win5_0.index t (0 : Fin 2) = win5_8.index t (0 : Fin 2) ∧ win5_0.index t (1 : Fin 2) = 0
    ∧ win5_1.index t (0 : Fin 2) = win5_8.index t (0 : Fin 2) ∧ win5_1.index t (1 : Fin 2) = 0
    ∧ win5_2.index t (0 : Fin 2) = win5_8.index t (0 : Fin 2) ∧ win5_2.index t (1 : Fin 2) = 0
    ∧ win5_3.index t (0 : Fin 2) = win5_8.index t (0 : Fin 2) ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- An array read through the output's block at point t, at a block entry: the array at the entry's place in it. -/
theorem read_out5 (G : S20000x256.Idx → EReal) (t : Fin cfg5.N) (j : S2000x256.Idx) :
    ((cfg5.win 8).blk t).view.read (Elt Ideal) G j = G (((cfg5.win 8).blk t).view.emb j) := rfl

/-- An aggregate's block at (p, k) is the aggregate at the output entry's row, column k. -/
theorem agg5_0_at (c : Dev nD) (t : Fin cfg5.N) (p : Fin 2000) (q k : Fin 256) :
    iblk5 V c 0 t (ix2 p k)
      = V c (Pipeline.arrRef spec5 0) (ix2 ((((cfg5.win 8).blk t).view.emb (ix2 p q)) 0) k) := by
  obtain ⟨e, e', -⟩ := blockIndex5 t
  show V c (Pipeline.arrRef spec5 0) (((cfg5.win 0).blk t).view.emb (ix2 p k)) = _
  refine congrArg (V c (Pipeline.arrRef spec5 0)) (funext fun a => Fin.ext ?_)
  match a with
  | ⟨0, _⟩ =>
    show win5_0.index t (0 : Fin 2) * 2000 + 1 * p.val = win5_8.index t (0 : Fin 2) * 2000 + 1 * p.val
    omega
  | ⟨1, _⟩ =>
    show win5_0.index t (1 : Fin 2) * 256 + 1 * k.val = k.val
    omega

theorem agg5_1_at (c : Dev nD) (t : Fin cfg5.N) (p : Fin 2000) (q k : Fin 256) :
    iblk5 V c 1 t (ix2 p k)
      = V c (Pipeline.arrRef spec5 1) (ix2 ((((cfg5.win 8).blk t).view.emb (ix2 p q)) 0) k) := by
  obtain ⟨-, -, e, e', -⟩ := blockIndex5 t
  show V c (Pipeline.arrRef spec5 1) (((cfg5.win 1).blk t).view.emb (ix2 p k)) = _
  refine congrArg (V c (Pipeline.arrRef spec5 1)) (funext fun a => Fin.ext ?_)
  match a with
  | ⟨0, _⟩ =>
    show win5_1.index t (0 : Fin 2) * 2000 + 1 * p.val = win5_8.index t (0 : Fin 2) * 2000 + 1 * p.val
    omega
  | ⟨1, _⟩ =>
    show win5_1.index t (1 : Fin 2) * 256 + 1 * k.val = k.val
    omega

/-- A column's block at (p, 0) is the column at the output entry's row. -/
theorem col5_2_at (c : Dev nD) (t : Fin cfg5.N) (p : Fin 2000) (q : Fin 256) :
    iblk5 V c 2 t (ix2 p (0 : Fin 1))
      = V c (Pipeline.arrRef spec5 2) (ix2 ((((cfg5.win 8).blk t).view.emb (ix2 p q)) 0) (0 : Fin 1)) := by
  obtain ⟨-, -, -, -, e, e', -⟩ := blockIndex5 t
  show V c (Pipeline.arrRef spec5 2) (((cfg5.win 2).blk t).view.emb (ix2 p (0 : Fin 1))) = _
  refine congrArg (V c (Pipeline.arrRef spec5 2)) (funext fun a => Fin.ext ?_)
  match a with
  | ⟨0, _⟩ =>
    show win5_2.index t (0 : Fin 2) * 2000 + 1 * p.val = win5_8.index t (0 : Fin 2) * 2000 + 1 * p.val
    omega
  | ⟨1, _⟩ =>
    show win5_2.index t (1 : Fin 2) * 1 + 1 * ((0 : Fin 1) : Nat) = ((0 : Fin 1) : Nat)
    omega

theorem col5_3_at (c : Dev nD) (t : Fin cfg5.N) (p : Fin 2000) (q : Fin 256) :
    iblk5 V c 3 t (ix2 p (0 : Fin 1))
      = V c (Pipeline.arrRef spec5 3) (ix2 ((((cfg5.win 8).blk t).view.emb (ix2 p q)) 0) (0 : Fin 1)) := by
  obtain ⟨-, -, -, -, -, -, e, e', -⟩ := blockIndex5 t
  show V c (Pipeline.arrRef spec5 3) (((cfg5.win 3).blk t).view.emb (ix2 p (0 : Fin 1))) = _
  refine congrArg (V c (Pipeline.arrRef spec5 3)) (funext fun a => Fin.ext ?_)
  match a with
  | ⟨0, _⟩ =>
    show win5_3.index t (0 : Fin 2) * 2000 + 1 * p.val = win5_8.index t (0 : Fin 2) * 2000 + 1 * p.val
    omega
  | ⟨1, _⟩ =>
    show win5_3.index t (1 : Fin 2) * 1 + 1 * ((0 : Fin 1) : Nat) = ((0 : Fin 1) : Nat)
    omega

/-- A weight matrix's one block at (k, q) is the matrix at row k and the output entry's column. -/
theorem weight5_4_at (c : Dev nD) (t : Fin cfg5.N) (p : Fin 2000) (q k : Fin 256) :
    iblk5 V c 4 t (ix2 k q)
      = V c (Pipeline.arrRef spec5 4) (ix2 k ((((cfg5.win 8).blk t).view.emb (ix2 p q)) 1)) := by
  obtain ⟨-, -, -, -, -, -, -, -, e, e', -, -, -, -, -, -, -, e8⟩ := blockIndex5 t
  show V c (Pipeline.arrRef spec5 4) (((cfg5.win 4).blk t).view.emb (ix2 k q)) = _
  refine congrArg (V c (Pipeline.arrRef spec5 4)) (funext fun a => Fin.ext ?_)
  match a with
  | ⟨0, _⟩ =>
    show win5_4.index t (0 : Fin 2) * 256 + 1 * k.val = k.val
    omega
  | ⟨1, _⟩ =>
    show win5_4.index t (1 : Fin 2) * 256 + 1 * q.val = win5_8.index t (1 : Fin 2) * 256 + 1 * q.val
    omega

theorem weight5_6_at (c : Dev nD) (t : Fin cfg5.N) (p : Fin 2000) (q k : Fin 256) :
    iblk5 V c 6 t (ix2 k q)
      = V c (Pipeline.arrRef spec5 6) (ix2 k ((((cfg5.win 8).blk t).view.emb (ix2 p q)) 1)) := by
  obtain ⟨-, -, -, -, -, -, -, -, -, -, -, -, e, e', -, -, -, e8⟩ := blockIndex5 t
  show V c (Pipeline.arrRef spec5 6) (((cfg5.win 6).blk t).view.emb (ix2 k q)) = _
  refine congrArg (V c (Pipeline.arrRef spec5 6)) (funext fun a => Fin.ext ?_)
  match a with
  | ⟨0, _⟩ =>
    show win5_6.index t (0 : Fin 2) * 256 + 1 * k.val = k.val
    omega
  | ⟨1, _⟩ =>
    show win5_6.index t (1 : Fin 2) * 256 + 1 * q.val = win5_8.index t (1 : Fin 2) * 256 + 1 * q.val
    omega

/-- A bias row's one block at (0, q) is the row at the output entry's column. -/
theorem bias5_5_at (c : Dev nD) (t : Fin cfg5.N) (p : Fin 2000) (q : Fin 256) :
    iblk5 V c 5 t (ix2 (0 : Fin 1) q)
      = V c (Pipeline.arrRef spec5 5) (ix2 (0 : Fin 1) ((((cfg5.win 8).blk t).view.emb (ix2 p q)) 1)) := by
  obtain ⟨-, -, -, -, -, -, -, -, -, -, e, e', -, -, -, -, -, e8⟩ := blockIndex5 t
  show V c (Pipeline.arrRef spec5 5) (((cfg5.win 5).blk t).view.emb (ix2 (0 : Fin 1) q)) = _
  refine congrArg (V c (Pipeline.arrRef spec5 5)) (funext fun a => Fin.ext ?_)
  match a with
  | ⟨0, _⟩ =>
    show win5_5.index t (0 : Fin 2) * 1 + 1 * ((0 : Fin 1) : Nat) = ((0 : Fin 1) : Nat)
    omega
  | ⟨1, _⟩ =>
    show win5_5.index t (1 : Fin 2) * 256 + 1 * q.val = win5_8.index t (1 : Fin 2) * 256 + 1 * q.val
    omega

theorem bias5_7_at (c : Dev nD) (t : Fin cfg5.N) (p : Fin 2000) (q : Fin 256) :
    iblk5 V c 7 t (ix2 (0 : Fin 1) q)
      = V c (Pipeline.arrRef spec5 7) (ix2 (0 : Fin 1) ((((cfg5.win 8).blk t).view.emb (ix2 p q)) 1)) := by
  obtain ⟨-, -, -, -, -, -, -, -, -, -, -, -, -, -, e, e', -, e8⟩ := blockIndex5 t
  show V c (Pipeline.arrRef spec5 7) (((cfg5.win 7).blk t).view.emb (ix2 (0 : Fin 1) q)) = _
  refine congrArg (V c (Pipeline.arrRef spec5 7)) (funext fun a => Fin.ext ?_)
  match a with
  | ⟨0, _⟩ =>
    show win5_7.index t (0 : Fin 2) * 1 + 1 * ((0 : Fin 1) : Nat) = ((0 : Fin 1) : Nat)
    omega
  | ⟨1, _⟩ =>
    show win5_7.index t (1 : Fin 2) * 256 + 1 * q.val = win5_8.index t (1 : Fin 2) * 256 + 1 * q.val
    omega

/-- What point t writes back is block t of the dense half of the layer. -/
theorem flushed5 (c : Dev nD) (t : Fin cfg5.N) :
    (dat5 (F := Ideal) V c).flushed 8 t = ((cfg5.win 8).blk t).view.read (Elt Ideal)
      (Cert.Spec.mix (V c (Pipeline.arrRef spec5 0)) (V c (Pipeline.arrRef spec5 1))
        (Cert.Spec.col (V c (Pipeline.arrRef spec5 2))) (Cert.Spec.col (V c (Pipeline.arrRef spec5 3)))
        (V c (Pipeline.arrRef spec5 4)) (V c (Pipeline.arrRef spec5 6))
        (Cert.Spec.row (V c (Pipeline.arrRef spec5 5))) (Cert.Spec.row (V c (Pipeline.arrRef spec5 7)))) := by
  show (cfg5.win 8).cut (grid5.coords t) ((dat5 V c).after 8 t) = _
  rw [after5_8]
  unfold out5_8
  rw [View.canon_unit_zero whole_block_offsets]
  simp only [View.ld_unit_zero (S := S2000x256) whole_block_offsets, View.ld_unit_zero (S := S2000x1) whole_block_offsets,
    View.ld_unit_zero (S := S256x256) whole_block_offsets, View.ld_unit_zero (S := S1x256) whole_block_offsets]
  funext j
  obtain ⟨p, q, rfl⟩ : ∃ (p : Fin 2000) (q : Fin 256), j = ix2 p q := ⟨j 0, j 1, eq_ix2 j⟩
  show k5_pay1 (F := Ideal) (iblk5 V c 0 t) (iblk5 V c 2 t) (iblk5 V c 1 t) (iblk5 V c 3 t)
      (iblk5 V c 4 t) (iblk5 V c 6 t) (iblk5 V c 5 t) (iblk5 V c 7 t) (ix2 p q) = _
  refine ((Cert.KernelIdeal.MixPayload.k5_pay1_apply _ _ _ _ _ _ _ _ p q).trans ?_).trans (read_out5 _ t (ix2 p q)).symm
  rw [mix_apply]
  refine congrArg₂ (fun a b : EReal => a + b) (congrArg₂ (fun a b : EReal => a + b)
    (congrArg₂ (fun a b : EReal => a + b) (Finset.sum_congr rfl fun k _ => ?_) (Finset.sum_congr rfl fun k _ => ?_))
    (bias5_5_at V c t p q)) (bias5_7_at V c t p q)
  · exact congrArg₂ (fun a b : EReal => a * b)
      (congrArg₂ (fun a b : EReal => a * b) (agg5_0_at V c t p q k) (col5_2_at V c t p q)) (weight5_4_at V c t p q k)
  · exact congrArg₂ (fun a b : EReal => a * b)
      (congrArg₂ (fun a b : EReal => a * b) (agg5_1_at V c t p q k) (col5_3_at V c t p q)) (weight5_6_at V c t p q k)

/-- An index of the output array is in point t's block iff each coordinate is in the block's range on its axis. -/
theorem mem_block5 (t : Fin cfg5.N) (i : S20000x256.Idx) :
    i ∈ ((cfg5.win 8).blk t).view.set ↔ ∀ a : Fin 2, win5_8.index t a * S2000x256.size a ≤ (i a).val
      ∧ (i a).val < win5_8.index t a * S2000x256.size a + S2000x256.size a := by
  show i ∈ ((View.whole main_v91).slice (win5_8.rect t)).set ↔ _
  rw [View.set_slice_whole, Rect.mem_set_unit]
  exact Iff.rfl

/-- Every index is in some point's block: row r lies in block r / 2000. -/
theorem cover5 (i : S20000x256.Idx) :
    ∃ t : Fin cfg5.N, (cfg5.win 8).flush t = true ∧ i ∈ ((cfg5.win 8).blk t).view.set := by
  have hi0 : (i 0).val < 20000 := (i 0).isLt
  have hi1 : (i 1).val < 256 := (i 1).isLt
  obtain ⟨t, ht⟩ : ∃ t : Fin cfg5.N, t.val = (i 0).val / 2000 :=
    ⟨⟨(i 0).val / 2000, by show _ < grid5.N; rw [N_5]; omega⟩, rfl⟩
  obtain ⟨-, -, -, -, -, -, -, -, -, -, -, -, -, -, -, -, e4, e5⟩ := blockIndex5 t
  refine ⟨t, flush5_8 t, ?_⟩
  rw [mem_block5]
  intro a
  match a with
  | ⟨0, _⟩ =>
    show win5_8.index t (0 : Fin 2) * 2000 ≤ (i 0).val ∧ (i 0).val < win5_8.index t (0 : Fin 2) * 2000 + 2000
    omega
  | ⟨1, _⟩ =>
    show win5_8.index t (1 : Fin 2) * 256 ≤ (i 1).val ∧ (i 1).val < win5_8.index t (1 : Fin 2) * 256 + 256
    omega

/-- THE OUTPUT ARRAY after region 5: the two degree-scaled aggregates times their weights, added, plus the two
    biases. -/
theorem mix5 (c : Dev nD) :
    (dat5 (F := Ideal) V c).arrAt 8 cfg5.N
      = Cert.Spec.mix (V c (Pipeline.arrRef spec5 0)) (V c (Pipeline.arrRef spec5 1))
        (Cert.Spec.col (V c (Pipeline.arrRef spec5 2))) (Cert.Spec.col (V c (Pipeline.arrRef spec5 3)))
        (V c (Pipeline.arrRef spec5 4)) (V c (Pipeline.arrRef spec5 6))
        (Cert.Spec.row (V c (Pipeline.arrRef spec5 5))) (Cert.Spec.row (V c (Pipeline.arrRef spec5 7))) :=
  (dat5 V c).arrAt_eq_of_cover 8 _ (fun t _ => flushed5 V c t) cover5

end Cert.KernelIdeal.RegionValue

end
-- ==== Proof.Graph.lean ====
/-
  The irregular part of the two relations as both programs print it, over extended reals: a degree scaling is
  the count of a node's occurrences in an index vector (a scatter-add of ones into zeros), clamped below at one,
  raised to the power -1/2; an edge sum gathers row src[e] of the features for every edge e (negative indices
  wrapped by +20000) and scatter-adds it into row dst[e] of zeros.  Both are kept as the host operations
  themselves: the two programs apply the same operations to the same index vectors, so nothing here is read
  at an index.
-/
import proofs.«169953_j9345848836755_1_alg».proof.Proof.Gen.ReferenceIdeal
import proofs.«169953_j9345848836755_1_alg».proof.Proof.Spec

noncomputable section

namespace Cert.GraphPart

open Idealize.ShloMosaic Cert.ReferenceIdeal Cert.ReferenceIdeal.Gen

/-- deg(idx)^(-1/2), the count clamped below at one. -/
def deg (idx : IVec S640000 32) : FVec Ideal S20000 .f32 :=
  Host.powf (maximumf (Host.scatterAdd scatter_S20000_S640000x1_S640000_n_0_0_1 (broadcastInDim S20000 ![] bcast_S_S20000 (constant S_ .f32 0x00000000#32)) (broadcastInDim S640000x1 ![0] bcast_S640000_S640000x1_0 idx) (broadcastInDim S640000 ![] bcast_S_S640000 (constant S_ .f32 0x3F800000#32))) (broadcastInDim S20000 ![] bcast_S_S20000 (constant S_ .f32 0x3F800000#32))) (broadcastInDim S20000 ![] bcast_S_S20000 (constant S_ .f32 0xBF000000#32))

/-- The sum over a relation's edges: row dst[e] receives row src[e]. -/
def hop (src dst : IVec S640000 32) (y : FVec Ideal S20000x256 .f32) : FVec Ideal S20000x256 .f32 :=
  Host.scatterAdd scatter_S20000x256_S640000x1_S640000x256_1_0_0_1 (broadcastInDim S20000x256 ![] bcast_S_S20000x256 (constant S_ .f32 0x00000000#32)) (broadcastInDim S640000x1 ![0] bcast_S640000_S640000x1_0 dst) (Host.gather gather_S20000x256_S640000x1_S640000x256_1_0_n_n_0_1_1256 y (broadcastInDim S640000x1 ![0] bcast_S640000_S640000x1_0 (select (cmpi .slt src (broadcastInDim S640000 ![] bcast_S_S640000 (constantI S_ 32 0#32))) (addi src (broadcastInDim S640000 ![] bcast_S_S640000 (constantI S_ 32 20000#32))) src)))

/-- The two relations S (src sS, dst dS) and U (src sU, dst dU). -/
def graph (sS dS sU dU : IVec S640000 32) : Cert.Spec.Graph where
  outS := deg sS
  inS := deg dS
  outU := deg sU
  inU := deg dU
  hopS := hop sS dS
  hopU := hop sU dU

end Cert.GraphPart

end
-- ==== Proof.Stages.lean ====
/-
  The contents of the buffers that matter at each boundary of the idealized kernel's run, as functions of the
  argument arrays: the four degree scalings, each row-scaling region's result (rows of its input scaled by a
  degree scaling), each edge sum of such a result, the first combine region's result (the clamped first layer)
  and the last one's (the network).  A value is carried from where it is produced to where it is read by the
  fact that nothing in between writes its buffer.
-/
import proofs.«169953_j9345848836755_1_alg».proof.Proof.Gen.KernelIdeal.Frame
import proofs.«169953_j9345848836755_1_alg».proof.Proof.Keep
import proofs.«169953_j9345848836755_1_alg».proof.Proof.RegionScale
import proofs.«169953_j9345848836755_1_alg».proof.Proof.RegionMix
import proofs.«169953_j9345848836755_1_alg».proof.Proof.Graph
import proofs.«169953_j9345848836755_1_alg».proof.Proof.LibKeepdimsColumn

set_option maxRecDepth 16384

noncomputable section

namespace Cert.KernelIdeal.Stages

open Cert.KernelIdeal Cert.KernelIdeal.Gen Cert.KernelIdeal.Keep
open Idealize.ShloMosaic Idealize.ShloMosaic.TcCoe Idealize.SL.Sem Idealize.ShloMosaic.StableHlo
open Idealize.ShloMosaic.ValueIdx

/-- A degree scaling as the kernel's host side prints it. -/
def kdeg (idx : IVec S640000 32) : FVec Ideal S20000 .f32 :=
  Host.powf (maximumf (Host.scatterAdd scatter_S20000_S640000x1_S640000_n_0_0_1 (broadcastInDim S20000 ![] bcast_S_S20000 (constant S_ .f32 0x00000000#32)) (broadcastInDim S640000x1 ![0] bcast_S640000_S640000x1_0 idx) (broadcastInDim S640000 ![] bcast_S_S640000 (constant S_ .f32 0x3F800000#32))) (broadcastInDim S20000 ![] bcast_S_S20000 (constant S_ .f32 0x3F800000#32))) (broadcastInDim S20000 ![] bcast_S_S20000 (constant S_ .f32 0xBF000000#32))

/-- An edge sum as the kernel's host side prints it. -/
def khop (src dst : IVec S640000 32) (y : FVec Ideal S20000x256 .f32) : FVec Ideal S20000x256 .f32 :=
  Host.scatterAdd scatter_S20000x256_S640000x1_S640000x256_1_0_0_1 (broadcastInDim S20000x256 ![] bcast_S_S20000x256 (constant S_ .f32 0x00000000#32)) (broadcastInDim S640000x1 ![0] bcast_S640000_S640000x1_0 dst) (Host.gather gather_S20000x256_S640000x1_S640000x256_1_0_n_n_0_1_1256 y (broadcastInDim S640000x1 ![0] bcast_S640000_S640000x1_0 (select (cmpi .slt src (broadcastInDim S640000 ![] bcast_S_S640000 (constantI S_ 32 0#32))) (addi src (broadcastInDim S640000 ![] bcast_S_S640000 (constantI S_ 32 20000#32))) src)))

/-- The two programs print the same operations with the same dimension numbers. -/
theorem kdeg_eq (idx : IVec S640000 32) : kdeg idx = Cert.GraphPart.deg idx := rfl
theorem khop_eq (s d : IVec S640000 32) (y : FVec Ideal S20000x256 .f32) : khop s d y = Cert.GraphPart.hop s d y := rfl

/-- A vector reshaped to a column and read back as a vector is the vector. -/
theorem col_cast (s : FVec Ideal S20000 .f32) :
    Cert.Spec.col (shapeCast S20000x1 s shapeCasts_S20000_S20000x1) = s :=
  funext fun j => (Cert.KeepdimsColumn.shapeCast_a_a1_apply (a := 20000) s shapeCasts_S20000_S20000x1 (j 0) 0).trans
    (congrArg s (eq_ix1 j).symm)

/-- A vector reshaped to one row and read back as a vector is the vector. -/
theorem row_cast (b : FVec Ideal S256 .f32) :
    Cert.Spec.row (shapeCast S1x256 b shapeCasts_S256_S1x256) = b := by
  funext j
  refine (shapeCast_apply b shapeCasts_S256_S1x256 (ix2 (0 : Fin 1) (j 0)) (ix1 (j 0)) ?_).trans (congrArg b (eq_ix1 j).symm)
  rw [Shape.rowMajor_val_two, Shape.rowMajor_val_one]
  show (j 0).val = 0 * 256 + (j 0).val
  omega

variable (m : (ℓ : Loc nD τ sig) → Buf (Elt Ideal) ℓ) (ρ : Dev nD → PrngReg) (c : Dev nD)

theorem w1_arg0 : W1 m ρ c (Proc.devRef .tc main_arg0) = (m ((c : Thread nD τ).loc main_arg0)) :=
  hstep0 m ρ c main_arg0 (by decide)

set_option maxHeartbeats 1000000 in
theorem w1_v12 : W1 m ρ c (Proc.devRef .tc main_v12) = kdeg (m ((c : Thread nD τ).loc main_arg1)) :=
  by dsimp only [W1, hostOps0]; after_results_simp; try rfl

set_option maxHeartbeats 1000000 in
theorem w1_v14 : W1 m ρ c (Proc.devRef .tc main_v14) = kdeg (m ((c : Thread nD τ).loc main_arg2)) :=
  by dsimp only [W1, hostOps0]; after_results_simp; try rfl

set_option maxHeartbeats 1000000 in
theorem w1_v27 : W1 m ρ c (Proc.devRef .tc main_v27) = kdeg (m ((c : Thread nD τ).loc main_arg3)) :=
  by dsimp only [W1, hostOps0]; after_results_simp; try rfl

set_option maxHeartbeats 1000000 in
theorem w1_v29 : W1 m ρ c (Proc.devRef .tc main_v29) = kdeg (m ((c : Thread nD τ).loc main_arg4)) :=
  by dsimp only [W1, hostOps0]; after_results_simp; try rfl

set_option maxHeartbeats 1000000 in
theorem w1_v30 : W1 m ρ c (Proc.devRef .tc main_v30) = (shapeCast S20000x1 (kdeg (m ((c : Thread nD τ).loc main_arg1))) shapeCasts_S20000_S20000x1) :=
  by dsimp only [W1, hostOps0]; after_results_simp; try rfl

theorem w2_v31 : W2 m ρ c (Proc.devRef .tc main_v31) = (Cert.Spec.scaleRows (m ((c : Thread nD τ).loc main_arg0)) (Cert.GraphPart.deg (m ((c : Thread nD τ).loc main_arg1)))) :=
  by
  have e0 : V1 m ρ c (Pipeline.arrRef spec0 0) = _ := w1_arg0 m ρ c
  have e1 : V1 m ρ c (Pipeline.arrRef spec0 1) = _ := w1_v30 m ρ c
  refine (W2_arr m ρ c 2).trans ((Cert.KernelIdeal.RegionValue.scale0 (V1 m ρ) c).trans ?_)
  rw [e0, e1, col_cast, kdeg_eq]

theorem w2_v27 : W2 m ρ c (Proc.devRef .tc main_v27) = kdeg (m ((c : Thread nD τ).loc main_arg3)) :=
  (W2_of_ne m ρ c main_v27 (by decide)).trans (w1_v27 m ρ c)

theorem w3_v32 : W3 m ρ c (Proc.devRef .tc main_v32) = (shapeCast S20000x1 (kdeg (m ((c : Thread nD τ).loc main_arg3))) shapeCasts_S20000_S20000x1) :=
  by
  have h : W3 m ρ c (Proc.devRef .tc main_v32) = (shapeCast S20000x1 (W2 m ρ c (Proc.devRef .tc main_v27)) shapeCasts_S20000_S20000x1) := by dsimp only [W3, hostOps1]; after_results_simp; try rfl
  rw [h, w2_v27]

theorem w3_arg0 : W3 m ρ c (Proc.devRef .tc main_arg0) = (m ((c : Thread nD τ).loc main_arg0)) :=
  (hstep1 m ρ c main_arg0 (by decide)).trans ((in0 m ρ c 0 rfl).trans (w1_arg0 m ρ c))

theorem w4_v33 : W4 m ρ c (Proc.devRef .tc main_v33) = (Cert.Spec.scaleRows (m ((c : Thread nD τ).loc main_arg0)) (Cert.GraphPart.deg (m ((c : Thread nD τ).loc main_arg3)))) :=
  by
  have e0 : V3 m ρ c (Pipeline.arrRef spec1 0) = _ := w3_arg0 m ρ c
  have e1 : V3 m ρ c (Pipeline.arrRef spec1 1) = _ := w3_v32 m ρ c
  refine (W4_arr m ρ c 2).trans ((Cert.KernelIdeal.RegionValue.scale1 (V3 m ρ) c).trans ?_)
  rw [e0, e1, col_cast, kdeg_eq]

theorem w4_arg1 : W4 m ρ c (Proc.devRef .tc main_arg1) = (m ((c : Thread nD τ).loc main_arg1)) :=
  (keep_1_4 m ρ c main_arg1 (by decide) (by decide) (by decide)).trans (hstep0 m ρ c main_arg1 (by decide))

theorem w4_arg2 : W4 m ρ c (Proc.devRef .tc main_arg2) = (m ((c : Thread nD τ).loc main_arg2)) :=
  (keep_1_4 m ρ c main_arg2 (by decide) (by decide) (by decide)).trans (hstep0 m ρ c main_arg2 (by decide))

theorem w4_arg3 : W4 m ρ c (Proc.devRef .tc main_arg3) = (m ((c : Thread nD τ).loc main_arg3)) :=
  (keep_1_4 m ρ c main_arg3 (by decide) (by decide) (by decide)).trans (hstep0 m ρ c main_arg3 (by decide))

theorem w4_arg4 : W4 m ρ c (Proc.devRef .tc main_arg4) = (m ((c : Thread nD τ).loc main_arg4)) :=
  (keep_1_4 m ρ c main_arg4 (by decide) (by decide) (by decide)).trans (hstep0 m ρ c main_arg4 (by decide))

theorem w4_arg5 : W4 m ρ c (Proc.devRef .tc main_arg5) = (m ((c : Thread nD τ).loc main_arg5)) :=
  (keep_1_4 m ρ c main_arg5 (by decide) (by decide) (by decide)).trans (hstep0 m ρ c main_arg5 (by decide))

theorem w4_arg6 : W4 m ρ c (Proc.devRef .tc main_arg6) = (m ((c : Thread nD τ).loc main_arg6)) :=
  (keep_1_4 m ρ c main_arg6 (by decide) (by decide) (by decide)).trans (hstep0 m ρ c main_arg6 (by decide))

theorem w4_arg7 : W4 m ρ c (Proc.devRef .tc main_arg7) = (m ((c : Thread nD τ).loc main_arg7)) :=
  (keep_1_4 m ρ c main_arg7 (by decide) (by decide) (by decide)).trans (hstep0 m ρ c main_arg7 (by decide))

theorem w4_arg8 : W4 m ρ c (Proc.devRef .tc main_arg8) = (m ((c : Thread nD τ).loc main_arg8)) :=
  (keep_1_4 m ρ c main_arg8 (by decide) (by decide) (by decide)).trans (hstep0 m ρ c main_arg8 (by decide))

theorem w4_arg9 : W4 m ρ c (Proc.devRef .tc main_arg9) = (m ((c : Thread nD τ).loc main_arg9)) :=
  (keep_1_4 m ρ c main_arg9 (by decide) (by decide) (by decide)).trans (hstep0 m ρ c main_arg9 (by decide))

theorem w4_arg10 : W4 m ρ c (Proc.devRef .tc main_arg10) = (m ((c : Thread nD τ).loc main_arg10)) :=
  (keep_1_4 m ρ c main_arg10 (by decide) (by decide) (by decide)).trans (hstep0 m ρ c main_arg10 (by decide))

theorem w4_arg11 : W4 m ρ c (Proc.devRef .tc main_arg11) = (m ((c : Thread nD τ).loc main_arg11)) :=
  (keep_1_4 m ρ c main_arg11 (by decide) (by decide) (by decide)).trans (hstep0 m ρ c main_arg11 (by decide))

theorem w4_arg12 : W4 m ρ c (Proc.devRef .tc main_arg12) = (m ((c : Thread nD τ).loc main_arg12)) :=
  (keep_1_4 m ρ c main_arg12 (by decide) (by decide) (by decide)).trans (hstep0 m ρ c main_arg12 (by decide))

theorem w4_v31 : W4 m ρ c (Proc.devRef .tc main_v31) = (Cert.Spec.scaleRows (m ((c : Thread nD τ).loc main_arg0)) (Cert.GraphPart.deg (m ((c : Thread nD τ).loc main_arg1)))) :=
  (W4_of_ne m ρ c main_v31 (by decide)).trans ((hstep1 m ρ c main_v31 (by decide)).trans (w2_v31 m ρ c))

theorem w4_v12 : W4 m ρ c (Proc.devRef .tc main_v12) = kdeg (m ((c : Thread nD τ).loc main_arg1)) :=
  (keep_1_4 m ρ c main_v12 (by decide) (by decide) (by decide)).trans (w1_v12 m ρ c)

theorem w4_v14 : W4 m ρ c (Proc.devRef .tc main_v14) = kdeg (m ((c : Thread nD τ).loc main_arg2)) :=
  (keep_1_4 m ρ c main_v14 (by decide) (by decide) (by decide)).trans (w1_v14 m ρ c)

theorem w4_v27 : W4 m ρ c (Proc.devRef .tc main_v27) = kdeg (m ((c : Thread nD τ).loc main_arg3)) :=
  (keep_1_4 m ρ c main_v27 (by decide) (by decide) (by decide)).trans (w1_v27 m ρ c)

theorem w4_v29 : W4 m ρ c (Proc.devRef .tc main_v29) = kdeg (m ((c : Thread nD τ).loc main_arg4)) :=
  (keep_1_4 m ρ c main_v29 (by decide) (by decide) (by decide)).trans (w1_v29 m ρ c)

set_option maxHeartbeats 1000000 in
theorem w5_v43 : W5 m ρ c (Proc.devRef .tc main_v43) = (Cert.GraphPart.hop (m ((c : Thread nD τ).loc main_arg1)) (m ((c : Thread nD τ).loc main_arg2)) (Cert.Spec.scaleRows (m ((c : Thread nD τ).loc main_arg0)) (Cert.GraphPart.deg (m ((c : Thread nD τ).loc main_arg1))))) :=
  by
  have h : W5 m ρ c (Proc.devRef .tc main_v43) = khop (W4 m ρ c (Proc.devRef .tc main_arg1)) (W4 m ρ c (Proc.devRef .tc main_arg2)) (W4 m ρ c (Proc.devRef .tc main_v31)) := by dsimp only [W5, hostOps2]; after_results_simp; try rfl
  rw [h, w4_arg1, w4_arg2, w4_v31, khop_eq]

set_option maxHeartbeats 1000000 in
theorem w5_v53 : W5 m ρ c (Proc.devRef .tc main_v53) = (Cert.GraphPart.hop (m ((c : Thread nD τ).loc main_arg3)) (m ((c : Thread nD τ).loc main_arg4)) (Cert.Spec.scaleRows (m ((c : Thread nD τ).loc main_arg0)) (Cert.GraphPart.deg (m ((c : Thread nD τ).loc main_arg3))))) :=
  by
  have h : W5 m ρ c (Proc.devRef .tc main_v53) = khop (W4 m ρ c (Proc.devRef .tc main_arg3)) (W4 m ρ c (Proc.devRef .tc main_arg4)) (W4 m ρ c (Proc.devRef .tc main_v33)) := by dsimp only [W5, hostOps2]; after_results_simp; try rfl
  rw [h, w4_arg3, w4_arg4, w4_v33, khop_eq]

set_option maxHeartbeats 1000000 in
theorem w5_v54 : W5 m ρ c (Proc.devRef .tc main_v54) = (m ((c : Thread nD τ).loc main_arg5)) :=
  by
  have h : W5 m ρ c (Proc.devRef .tc main_v54) = (truncf .bf16 (W4 m ρ c (Proc.devRef .tc main_arg5) : FVec Ideal S256x256 .f32) bitsLt_bf16_f32 : FVec Ideal S256x256 .bf16) := by dsimp only [W5, hostOps2]; after_results_simp; try rfl
  rw [h, w4_arg5]; rfl

set_option maxHeartbeats 1000000 in
theorem w5_v55 : W5 m ρ c (Proc.devRef .tc main_v55) = (m ((c : Thread nD τ).loc main_arg7)) :=
  by
  have h : W5 m ρ c (Proc.devRef .tc main_v55) = (truncf .bf16 (W4 m ρ c (Proc.devRef .tc main_arg7) : FVec Ideal S256x256 .f32) bitsLt_bf16_f32 : FVec Ideal S256x256 .bf16) := by dsimp only [W5, hostOps2]; after_results_simp; try rfl
  rw [h, w4_arg7]; rfl

set_option maxHeartbeats 1000000 in
theorem w5_v56 : W5 m ρ c (Proc.devRef .tc main_v56) = (shapeCast S1x256 (m ((c : Thread nD τ).loc main_arg6)) shapeCasts_S256_S1x256) :=
  by
  have h : W5 m ρ c (Proc.devRef .tc main_v56) = (shapeCast S1x256 (W4 m ρ c (Proc.devRef .tc main_arg6)) shapeCasts_S256_S1x256) := by dsimp only [W5, hostOps2]; after_results_simp; try rfl
  rw [h, w4_arg6]

set_option maxHeartbeats 1000000 in
theorem w5_v57 : W5 m ρ c (Proc.devRef .tc main_v57) = (shapeCast S1x256 (m ((c : Thread nD τ).loc main_arg8)) shapeCasts_S256_S1x256) :=
  by
  have h : W5 m ρ c (Proc.devRef .tc main_v57) = (shapeCast S1x256 (W4 m ρ c (Proc.devRef .tc main_arg8)) shapeCasts_S256_S1x256) := by dsimp only [W5, hostOps2]; after_results_simp; try rfl
  rw [h, w4_arg8]

set_option maxHeartbeats 1000000 in
theorem w5_v58 : W5 m ρ c (Proc.devRef .tc main_v58) = (shapeCast S20000x1 (kdeg (m ((c : Thread nD τ).loc main_arg2))) shapeCasts_S20000_S20000x1) :=
  by
  have h : W5 m ρ c (Proc.devRef .tc main_v58) = (shapeCast S20000x1 (W4 m ρ c (Proc.devRef .tc main_v14)) shapeCasts_S20000_S20000x1) := by dsimp only [W5, hostOps2]; after_results_simp; try rfl
  rw [h, w4_v14]

set_option maxHeartbeats 1000000 in
theorem w5_v59 : W5 m ρ c (Proc.devRef .tc main_v59) = (shapeCast S20000x1 (kdeg (m ((c : Thread nD τ).loc main_arg4))) shapeCasts_S20000_S20000x1) :=
  by
  have h : W5 m ρ c (Proc.devRef .tc main_v59) = (shapeCast S20000x1 (W4 m ρ c (Proc.devRef .tc main_v29)) shapeCasts_S20000_S20000x1) := by dsimp only [W5, hostOps2]; after_results_simp; try rfl
  rw [h, w4_v29]

set_option maxHeartbeats 1000000 in
theorem w6_v60 : W6 m ρ c (Proc.devRef .tc main_v60) = (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) :=
  by
  have e0 : V5 m ρ c (Pipeline.arrRef spec2 0) = _ := w5_v43 m ρ c
  have e1 : V5 m ρ c (Pipeline.arrRef spec2 1) = _ := w5_v53 m ρ c
  have e2 : V5 m ρ c (Pipeline.arrRef spec2 2) = _ := w5_v58 m ρ c
  have e3 : V5 m ρ c (Pipeline.arrRef spec2 3) = _ := w5_v59 m ρ c
  have e4 : V5 m ρ c (Pipeline.arrRef spec2 4) = _ := w5_v54 m ρ c
  have e5 : V5 m ρ c (Pipeline.arrRef spec2 5) = _ := w5_v56 m ρ c
  have e6 : V5 m ρ c (Pipeline.arrRef spec2 6) = _ := w5_v55 m ρ c
  have e7 : V5 m ρ c (Pipeline.arrRef spec2 7) = _ := w5_v57 m ρ c
  refine (W6_arr m ρ c 8).trans ((Cert.KernelIdeal.RegionValue.mix2 (V5 m ρ) c).trans ?_)
  rw [e0, e1, e2, e3, e4, e5, e6, e7, col_cast, col_cast, row_cast, row_cast, kdeg_eq, kdeg_eq]
  rfl

theorem w6_v12 : W6 m ρ c (Proc.devRef .tc main_v12) = kdeg (m ((c : Thread nD τ).loc main_arg1)) :=
  (keep_4_6 m ρ c main_v12 (by decide) (by decide)).trans (w4_v12 m ρ c)

theorem w7_v61 : W7 m ρ c (Proc.devRef .tc main_v61) = (shapeCast S20000x1 (kdeg (m ((c : Thread nD τ).loc main_arg1))) shapeCasts_S20000_S20000x1) :=
  by
  have h : W7 m ρ c (Proc.devRef .tc main_v61) = (shapeCast S20000x1 (W6 m ρ c (Proc.devRef .tc main_v12)) shapeCasts_S20000_S20000x1) := by dsimp only [W7, hostOps3]; after_results_simp; try rfl
  rw [h, w6_v12]

theorem w7_v60 : W7 m ρ c (Proc.devRef .tc main_v60) = (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) :=
  (hstep3 m ρ c main_v60 (by decide)).trans (w6_v60 m ρ c)

theorem w8_v62 : W8 m ρ c (Proc.devRef .tc main_v62) = (Cert.Spec.scaleRows (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) (Cert.GraphPart.deg (m ((c : Thread nD τ).loc main_arg1)))) :=
  by
  have e0 : V7 m ρ c (Pipeline.arrRef spec3 0) = _ := w7_v60 m ρ c
  have e1 : V7 m ρ c (Pipeline.arrRef spec3 1) = _ := w7_v61 m ρ c
  refine (W8_arr m ρ c 2).trans ((Cert.KernelIdeal.RegionValue.scale3 (V7 m ρ) c).trans ?_)
  rw [e0, e1, col_cast, kdeg_eq]

theorem w8_v27 : W8 m ρ c (Proc.devRef .tc main_v27) = kdeg (m ((c : Thread nD τ).loc main_arg3)) :=
  (keep_6_8 m ρ c main_v27 (by decide) (by decide)).trans ((keep_4_6 m ρ c main_v27 (by decide) (by decide)).trans (w4_v27 m ρ c))

theorem w9_v63 : W9 m ρ c (Proc.devRef .tc main_v63) = (shapeCast S20000x1 (kdeg (m ((c : Thread nD τ).loc main_arg3))) shapeCasts_S20000_S20000x1) :=
  by
  have h : W9 m ρ c (Proc.devRef .tc main_v63) = (shapeCast S20000x1 (W8 m ρ c (Proc.devRef .tc main_v27)) shapeCasts_S20000_S20000x1) := by dsimp only [W9, hostOps4]; after_results_simp; try rfl
  rw [h, w8_v27]

theorem w9_v60 : W9 m ρ c (Proc.devRef .tc main_v60) = (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) :=
  (hstep4 m ρ c main_v60 (by decide)).trans ((in3 m ρ c 0 rfl).trans (w7_v60 m ρ c))

theorem w10_v64 : W10 m ρ c (Proc.devRef .tc main_v64) = (Cert.Spec.scaleRows (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) (Cert.GraphPart.deg (m ((c : Thread nD τ).loc main_arg3)))) :=
  by
  have e0 : V9 m ρ c (Pipeline.arrRef spec4 0) = _ := w9_v60 m ρ c
  have e1 : V9 m ρ c (Pipeline.arrRef spec4 1) = _ := w9_v63 m ρ c
  refine (W10_arr m ρ c 2).trans ((Cert.KernelIdeal.RegionValue.scale4 (V9 m ρ) c).trans ?_)
  rw [e0, e1, col_cast, kdeg_eq]

theorem w10_arg1 : W10 m ρ c (Proc.devRef .tc main_arg1) = (m ((c : Thread nD τ).loc main_arg1)) :=
  (keep_8_10 m ρ c main_arg1 (by decide) (by decide)).trans ((keep_6_8 m ρ c main_arg1 (by decide) (by decide)).trans ((keep_4_6 m ρ c main_arg1 (by decide) (by decide)).trans (w4_arg1 m ρ c)))

theorem w10_arg2 : W10 m ρ c (Proc.devRef .tc main_arg2) = (m ((c : Thread nD τ).loc main_arg2)) :=
  (keep_8_10 m ρ c main_arg2 (by decide) (by decide)).trans ((keep_6_8 m ρ c main_arg2 (by decide) (by decide)).trans ((keep_4_6 m ρ c main_arg2 (by decide) (by decide)).trans (w4_arg2 m ρ c)))

theorem w10_arg3 : W10 m ρ c (Proc.devRef .tc main_arg3) = (m ((c : Thread nD τ).loc main_arg3)) :=
  (keep_8_10 m ρ c main_arg3 (by decide) (by decide)).trans ((keep_6_8 m ρ c main_arg3 (by decide) (by decide)).trans ((keep_4_6 m ρ c main_arg3 (by decide) (by decide)).trans (w4_arg3 m ρ c)))

theorem w10_arg4 : W10 m ρ c (Proc.devRef .tc main_arg4) = (m ((c : Thread nD τ).loc main_arg4)) :=
  (keep_8_10 m ρ c main_arg4 (by decide) (by decide)).trans ((keep_6_8 m ρ c main_arg4 (by decide) (by decide)).trans ((keep_4_6 m ρ c main_arg4 (by decide) (by decide)).trans (w4_arg4 m ρ c)))

theorem w10_arg9 : W10 m ρ c (Proc.devRef .tc main_arg9) = (m ((c : Thread nD τ).loc main_arg9)) :=
  (keep_8_10 m ρ c main_arg9 (by decide) (by decide)).trans ((keep_6_8 m ρ c main_arg9 (by decide) (by decide)).trans ((keep_4_6 m ρ c main_arg9 (by decide) (by decide)).trans (w4_arg9 m ρ c)))

theorem w10_arg10 : W10 m ρ c (Proc.devRef .tc main_arg10) = (m ((c : Thread nD τ).loc main_arg10)) :=
  (keep_8_10 m ρ c main_arg10 (by decide) (by decide)).trans ((keep_6_8 m ρ c main_arg10 (by decide) (by decide)).trans ((keep_4_6 m ρ c main_arg10 (by decide) (by decide)).trans (w4_arg10 m ρ c)))

theorem w10_arg11 : W10 m ρ c (Proc.devRef .tc main_arg11) = (m ((c : Thread nD τ).loc main_arg11)) :=
  (keep_8_10 m ρ c main_arg11 (by decide) (by decide)).trans ((keep_6_8 m ρ c main_arg11 (by decide) (by decide)).trans ((keep_4_6 m ρ c main_arg11 (by decide) (by decide)).trans (w4_arg11 m ρ c)))

theorem w10_arg12 : W10 m ρ c (Proc.devRef .tc main_arg12) = (m ((c : Thread nD τ).loc main_arg12)) :=
  (keep_8_10 m ρ c main_arg12 (by decide) (by decide)).trans ((keep_6_8 m ρ c main_arg12 (by decide) (by decide)).trans ((keep_4_6 m ρ c main_arg12 (by decide) (by decide)).trans (w4_arg12 m ρ c)))

theorem w10_v14 : W10 m ρ c (Proc.devRef .tc main_v14) = kdeg (m ((c : Thread nD τ).loc main_arg2)) :=
  (keep_8_10 m ρ c main_v14 (by decide) (by decide)).trans ((keep_6_8 m ρ c main_v14 (by decide) (by decide)).trans ((keep_4_6 m ρ c main_v14 (by decide) (by decide)).trans (w4_v14 m ρ c)))

theorem w10_v29 : W10 m ρ c (Proc.devRef .tc main_v29) = kdeg (m ((c : Thread nD τ).loc main_arg4)) :=
  (keep_8_10 m ρ c main_v29 (by decide) (by decide)).trans ((keep_6_8 m ρ c main_v29 (by decide) (by decide)).trans ((keep_4_6 m ρ c main_v29 (by decide) (by decide)).trans (w4_v29 m ρ c)))

theorem w10_v62 : W10 m ρ c (Proc.devRef .tc main_v62) = (Cert.Spec.scaleRows (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) (Cert.GraphPart.deg (m ((c : Thread nD τ).loc main_arg1)))) :=
  (W10_of_ne m ρ c main_v62 (by decide)).trans ((hstep4 m ρ c main_v62 (by decide)).trans (w8_v62 m ρ c))

set_option maxHeartbeats 1000000 in
theorem w11_v74 : W11 m ρ c (Proc.devRef .tc main_v74) = (Cert.GraphPart.hop (m ((c : Thread nD τ).loc main_arg1)) (m ((c : Thread nD τ).loc main_arg2)) (Cert.Spec.scaleRows (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) (Cert.GraphPart.deg (m ((c : Thread nD τ).loc main_arg1))))) :=
  by
  have h : W11 m ρ c (Proc.devRef .tc main_v74) = khop (W10 m ρ c (Proc.devRef .tc main_arg1)) (W10 m ρ c (Proc.devRef .tc main_arg2)) (W10 m ρ c (Proc.devRef .tc main_v62)) := by dsimp only [W11, hostOps5]; after_results_simp; try rfl
  rw [h, w10_arg1, w10_arg2, w10_v62, khop_eq]

set_option maxHeartbeats 1000000 in
theorem w11_v84 : W11 m ρ c (Proc.devRef .tc main_v84) = (Cert.GraphPart.hop (m ((c : Thread nD τ).loc main_arg3)) (m ((c : Thread nD τ).loc main_arg4)) (Cert.Spec.scaleRows (Cert.Spec.clamp (Cert.Spec.layer (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)))) (Cert.GraphPart.deg (m ((c : Thread nD τ).loc main_arg3))))) :=
  by
  have h : W11 m ρ c (Proc.devRef .tc main_v84) = khop (W10 m ρ c (Proc.devRef .tc main_arg3)) (W10 m ρ c (Proc.devRef .tc main_arg4)) (W10 m ρ c (Proc.devRef .tc main_v64)) := by dsimp only [W11, hostOps5]; after_results_simp; try rfl
  rw [h, w10_arg3, w10_arg4, w10_v64, khop_eq]

set_option maxHeartbeats 1000000 in
theorem w11_v85 : W11 m ρ c (Proc.devRef .tc main_v85) = (m ((c : Thread nD τ).loc main_arg9)) :=
  by
  have h : W11 m ρ c (Proc.devRef .tc main_v85) = (truncf .bf16 (W10 m ρ c (Proc.devRef .tc main_arg9) : FVec Ideal S256x256 .f32) bitsLt_bf16_f32 : FVec Ideal S256x256 .bf16) := by dsimp only [W11, hostOps5]; after_results_simp; try rfl
  rw [h, w10_arg9]; rfl

set_option maxHeartbeats 1000000 in
theorem w11_v86 : W11 m ρ c (Proc.devRef .tc main_v86) = (m ((c : Thread nD τ).loc main_arg11)) :=
  by
  have h : W11 m ρ c (Proc.devRef .tc main_v86) = (truncf .bf16 (W10 m ρ c (Proc.devRef .tc main_arg11) : FVec Ideal S256x256 .f32) bitsLt_bf16_f32 : FVec Ideal S256x256 .bf16) := by dsimp only [W11, hostOps5]; after_results_simp; try rfl
  rw [h, w10_arg11]; rfl

set_option maxHeartbeats 1000000 in
theorem w11_v87 : W11 m ρ c (Proc.devRef .tc main_v87) = (shapeCast S1x256 (m ((c : Thread nD τ).loc main_arg10)) shapeCasts_S256_S1x256) :=
  by
  have h : W11 m ρ c (Proc.devRef .tc main_v87) = (shapeCast S1x256 (W10 m ρ c (Proc.devRef .tc main_arg10)) shapeCasts_S256_S1x256) := by dsimp only [W11, hostOps5]; after_results_simp; try rfl
  rw [h, w10_arg10]

set_option maxHeartbeats 1000000 in
theorem w11_v88 : W11 m ρ c (Proc.devRef .tc main_v88) = (shapeCast S1x256 (m ((c : Thread nD τ).loc main_arg12)) shapeCasts_S256_S1x256) :=
  by
  have h : W11 m ρ c (Proc.devRef .tc main_v88) = (shapeCast S1x256 (W10 m ρ c (Proc.devRef .tc main_arg12)) shapeCasts_S256_S1x256) := by dsimp only [W11, hostOps5]; after_results_simp; try rfl
  rw [h, w10_arg12]

set_option maxHeartbeats 1000000 in
theorem w11_v89 : W11 m ρ c (Proc.devRef .tc main_v89) = (shapeCast S20000x1 (kdeg (m ((c : Thread nD τ).loc main_arg2))) shapeCasts_S20000_S20000x1) :=
  by
  have h : W11 m ρ c (Proc.devRef .tc main_v89) = (shapeCast S20000x1 (W10 m ρ c (Proc.devRef .tc main_v14)) shapeCasts_S20000_S20000x1) := by dsimp only [W11, hostOps5]; after_results_simp; try rfl
  rw [h, w10_v14]

set_option maxHeartbeats 1000000 in
theorem w11_v90 : W11 m ρ c (Proc.devRef .tc main_v90) = (shapeCast S20000x1 (kdeg (m ((c : Thread nD τ).loc main_arg4))) shapeCasts_S20000_S20000x1) :=
  by
  have h : W11 m ρ c (Proc.devRef .tc main_v90) = (shapeCast S20000x1 (W10 m ρ c (Proc.devRef .tc main_v29)) shapeCasts_S20000_S20000x1) := by dsimp only [W11, hostOps5]; after_results_simp; try rfl
  rw [h, w10_v29]

set_option maxHeartbeats 1000000 in
theorem w12_v91 : W12 m ρ c (Proc.devRef .tc main_v91) = Cert.Spec.net (Cert.GraphPart.graph (m ((c : Thread nD τ).loc main_arg1)) (m ((c : Thread nD τ).loc main_arg2)) (m ((c : Thread nD τ).loc main_arg3)) (m ((c : Thread nD τ).loc main_arg4))) (m ((c : Thread nD τ).loc main_arg0)) (m ((c : Thread nD τ).loc main_arg5)) (m ((c : Thread nD τ).loc main_arg7)) (m ((c : Thread nD τ).loc main_arg6)) (m ((c : Thread nD τ).loc main_arg8)) (m ((c : Thread nD τ).loc main_arg9)) (m ((c : Thread nD τ).loc main_arg11)) (m ((c : Thread nD τ).loc main_arg10)) (m ((c : Thread nD τ).loc main_arg12)) :=
  by
  have e0 : V11 m ρ c (Pipeline.arrRef spec5 0) = _ := w11_v74 m ρ c
  have e1 : V11 m ρ c (Pipeline.arrRef spec5 1) = _ := w11_v84 m ρ c
  have e2 : V11 m ρ c (Pipeline.arrRef spec5 2) = _ := w11_v89 m ρ c
  have e3 : V11 m ρ c (Pipeline.arrRef spec5 3) = _ := w11_v90 m ρ c
  have e4 : V11 m ρ c (Pipeline.arrRef spec5 4) = _ := w11_v85 m ρ c
  have e5 : V11 m ρ c (Pipeline.arrRef spec5 5) = _ := w11_v87 m ρ c
  have e6 : V11 m ρ c (Pipeline.arrRef spec5 6) = _ := w11_v86 m ρ c
  have e7 : V11 m ρ c (Pipeline.arrRef spec5 7) = _ := w11_v88 m ρ c
  refine (W12_arr m ρ c 8).trans ((Cert.KernelIdeal.RegionValue.mix5 (V11 m ρ) c).trans ?_)
  rw [e0, e1, e2, e3, e4, e5, e6, e7, col_cast, col_cast, row_cast, row_cast, kdeg_eq, kdeg_eq]
  rfl

end Cert.KernelIdeal.Stages

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«169953_j9345848836755_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.RefValue.lean ====
/-
  The reference program computes the specification's two-layer network.

  Its result is one composed term of host operations of the thirteen arguments.  Read layer by layer it is, for each
  relation, the matrix product of the degree-scaled edge sum with the relation's weights plus the relation's bias
  repeated down the rows, the two relations' results added, and between the two layers a maximum with a zero array.
  Three facts about host operations over arbitrary arrays carry the proof: multiplying by a vector spread first to a
  column and then along the rows scales the rows (`scale_eq`); a matrix product of row-scaled aggregates plus a bias
  spread down the rows is the specification's dense product plus the bias entry (`conv_eq`); a maximum with the spread
  zero word is the clamp (`clamp_eq`).  The sum of the two relations' results is the specification's `mix` after
  regrouping the four summands, which needs only commutativity and associativity of addition on extended reals.
  The degree vectors and edge sums are never read at an index: the program's subterms are the graph part's own.
-/
import proofs.«169953_j9345848836755_1_alg».proof.Proof.Gen.ReferenceIdeal.Run
import proofs.«169953_j9345848836755_1_alg».proof.Proof.Graph
import proofs.«169953_j9345848836755_1_alg».proof.Proof.LibDotNN
import proofs.«169953_j9345848836755_1_alg».proof.Proof.LibHostBroadcasts
import proofs.«169953_j9345848836755_1_alg».proof.Proof.LibBroadcastRows

noncomputable section

namespace Cert.ReferenceIdeal.RefValue

open Cert.ReferenceIdeal Cert.ReferenceIdeal.Gen Idealize.ShloMosaic Idealize.ShloMosaic.ValueIdx
  Idealize.ShloMosaic.TcCoe Idealize.SL.Sem

/-- A node vector spread to a column and then along the rows: the array whose entry (p, q) is the vector's entry p. -/
abbrev spread (s : FVec Ideal S20000 .f32) : FVec Ideal S20000x256 .f32 :=
  broadcastInDim S20000x256 ![0, 1] bcast_S20000x1_S20000x256_0_1 (broadcastInDim S20000x1 ![0] bcast_S20000_S20000x1_0 s)

/-- At (p, q) the spread vector reads the vector's entry p. -/
theorem spread_apply (s : FVec Ideal S20000 .f32) (p : Fin 20000) (q : Fin 256) : spread s (ix2 p q) = s (ix1 p) := by
  unfold spread
  rw [Cert.HostBroadcasts.col_rows_apply, Cert.HostBroadcasts.col_apply]

/-- Multiplying by a spread node vector scales the rows. -/
theorem scale_eq (x : FVec Ideal S20000x256 .f32) (s : FVec Ideal S20000 .f32) :
    mulf x (spread s) = Cert.Spec.scaleRows x s := by
  funext i
  obtain ⟨p, q, rfl⟩ : ∃ p q, i = ix2 p q := ⟨i 0, i 1, eq_ix2 i⟩
  rw [mulf_apply, spread_apply]
  rfl

/-- One relation's dense half: the product of the row-scaled aggregate with the weights, plus the bias repeated down
    the rows, is the specification's product plus the bias entry of the column. -/
theorem conv_eq (a : FVec Ideal S20000x256 .f32) (d : FVec Ideal S20000 .f32) (w : FVec Ideal S256x256 .f32)
    (b : FVec Ideal S256 .f32) :
    addf (Host.dotGeneral (F := Ideal) dot_S20000x256_S256x256_S20000x256_1_0_0_1_n_n none (mulf a (spread d)) w)
        (broadcastInDim S20000x256 ![0, 1] bcast_S1x256_S20000x256_0_1 (broadcastInDim S1x256 ![1] bcast_S256_S1x256_1 b))
      = fun i => Cert.Spec.proj a d w i + b (ix1 (i 1)) := by
  funext i
  obtain ⟨p, q, rfl⟩ : ∃ p q, i = ix2 p q := ⟨i 0, i 1, eq_ix2 i⟩
  rw [addf_apply, Cert.DotNN.dotGeneral_apply (M := 20000) (K := 256) (N := 256) dot_S20000x256_S256x256_S20000x256_1_0_0_1_n_n rfl,
    Cert.BroadcastRows.row_apply, Cert.BroadcastRows.unit_apply]
  unfold Cert.Spec.proj
  refine congrArg (· + b (ix1 q)) (Finset.sum_congr rfl fun k _ => ?_)
  rw [mulf_apply, spread_apply]

/-- A maximum with the zero word spread over the array is the clamp. -/
theorem clamp_eq (x : FVec Ideal S20000x256 .f32) :
    maximumf x (broadcastInDim S20000x256 ![] bcast_S_S20000x256 (constant (F := Ideal) S_ .f32 0x00000000#32))
      = Cert.Spec.clamp x := by
  funext i
  rw [maximumf_apply, Cert.HostBroadcasts.scalar_apply, constant_apply]
  rfl

/-- One layer as the program composes it, over arbitrary index vectors, features, weights and biases: for each relation
    the edge sum of the out-degree-scaled features, scaled by the in-degree, times the weights, plus the bias. -/
def refLayer (sS dS sU dU : IVec S640000 32) (h : FVec Ideal S20000x256 .f32) (wS wU : FVec Ideal S256x256 .f32)
    (bS bU : FVec Ideal S256 .f32) : FVec Ideal S20000x256 .f32 :=
  addf
    (addf (Host.dotGeneral (F := Ideal) dot_S20000x256_S256x256_S20000x256_1_0_0_1_n_n none
        (mulf (Cert.GraphPart.hop sS dS (mulf h (spread (Cert.GraphPart.deg sS)))) (spread (Cert.GraphPart.deg dS))) wS)
      (broadcastInDim S20000x256 ![0, 1] bcast_S1x256_S20000x256_0_1 (broadcastInDim S1x256 ![1] bcast_S256_S1x256_1 bS)))
    (addf (Host.dotGeneral (F := Ideal) dot_S20000x256_S256x256_S20000x256_1_0_0_1_n_n none
        (mulf (Cert.GraphPart.hop sU dU (mulf h (spread (Cert.GraphPart.deg sU)))) (spread (Cert.GraphPart.deg dU))) wU)
      (broadcastInDim S20000x256 ![0, 1] bcast_S1x256_S20000x256_0_1 (broadcastInDim S1x256 ![1] bcast_S256_S1x256_1 bU)))

/-- That composition is the specification's layer over the graph part of the four index vectors. -/
theorem layer_eq (sS dS sU dU : IVec S640000 32) (h : FVec Ideal S20000x256 .f32) (wS wU : FVec Ideal S256x256 .f32)
    (bS bU : FVec Ideal S256 .f32) :
    refLayer sS dS sU dU h wS wU bS bU = Cert.Spec.layer (Cert.GraphPart.graph sS dS sU dU) h wS wU bS bU := by
  unfold refLayer
  rw [conv_eq, conv_eq, scale_eq, scale_eq]
  funext i
  rw [addf_apply]
  unfold Cert.Spec.layer
  rw [Cert.Spec.mix_eq_sum]
  rfl

/-- The reference's result is the two-layer network over the graph part of its four index vectors. -/
theorem result_eq (m : (ℓ : Loc nD τ sig) → Buf (Elt Ideal) ℓ) (c : Dev nD) :
    Cert.ReferenceIdeal.Value.res_main_v142 (F := Ideal) m c
      = Cert.Spec.net
          (Cert.GraphPart.graph (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg0))
          (m ((c.tc : Thread nD τ).loc main_arg5)) (m ((c.tc : Thread nD τ).loc main_arg7))
          (m ((c.tc : Thread nD τ).loc main_arg6)) (m ((c.tc : Thread nD τ).loc main_arg8))
          (m ((c.tc : Thread nD τ).loc main_arg9)) (m ((c.tc : Thread nD τ).loc main_arg11))
          (m ((c.tc : Thread nD τ).loc main_arg10)) (m ((c.tc : Thread nD τ).loc main_arg12)) := by
  have hres : Cert.ReferenceIdeal.Value.res_main_v142 (F := Ideal) m c
      = refLayer (m ((c.tc : Thread nD τ).loc main_arg1)) (m ((c.tc : Thread nD τ).loc main_arg2))
          (m ((c.tc : Thread nD τ).loc main_arg3)) (m ((c.tc : Thread nD τ).loc main_arg4))
          (maximumf
            (refLayer (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg0))
              (m ((c.tc : Thread nD τ).loc main_arg5)) (m ((c.tc : Thread nD τ).loc main_arg7))
              (m ((c.tc : Thread nD τ).loc main_arg6)) (m ((c.tc : Thread nD τ).loc main_arg8)))
            (broadcastInDim S20000x256 ![] bcast_S_S20000x256 (constant (F := Ideal) S_ .f32 0x00000000#32)))
          (m ((c.tc : Thread nD τ).loc main_arg9)) (m ((c.tc : Thread nD τ).loc main_arg11))
          (m ((c.tc : Thread nD τ).loc main_arg10)) (m ((c.tc : Thread nD τ).loc main_arg12)) := by
    unfold Cert.ReferenceIdeal.Value.res_main_v142 refLayer Cert.GraphPart.hop Cert.GraphPart.deg
    rfl
  rw [hres, layer_eq, clamp_eq, layer_eq]
  rfl

/-- The same for the result named by its position among the returned values. -/
theorem out0_eq (m : (ℓ : Loc nD τ sig) → Buf (Elt Ideal) ℓ) (c : Dev nD) :
    Cert.ReferenceIdeal.Value.res_out0 (F := Ideal) m c
      = Cert.Spec.net
          (Cert.GraphPart.graph (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg0))
          (m ((c.tc : Thread nD τ).loc main_arg5)) (m ((c.tc : Thread nD τ).loc main_arg7))
          (m ((c.tc : Thread nD τ).loc main_arg6)) (m ((c.tc : Thread nD τ).loc main_arg8))
          (m ((c.tc : Thread nD τ).loc main_arg9)) (m ((c.tc : Thread nD τ).loc main_arg11))
          (m ((c.tc : Thread nD τ).loc main_arg10)) (m ((c.tc : Thread nD τ).loc main_arg12)) :=
  result_eq m c

end Cert.ReferenceIdeal.RefValue

end
-- ==== Proof.lean ====
/-
  The claim: a two-layer heterogeneous graph convolution (two relations on 20000 nodes, 256 features), computed
  by six kernel regions among host gathers and scatter-adds, equals its plain reference over the extended reals.

  Both programs compute, per layer and per relation, rows of the features scaled by out-degree^(-1/2), summed
  over the relation's edges, scaled by in-degree^(-1/2), multiplied by the weight, plus the bias; the layer is
  the sum over the two relations and the first layer is clamped below at zero.  The kernel does the two row
  scalings and the dense part in regions and adds the biases after the sum of the two products; the reference
  adds each bias to its own product.  The two arrangements agree because addition of extended reals is
  commutative and associative (Spec.mix_eq_sum); the degree scalings and the edge sums are the same host
  operations of the same index vectors in both programs and are never opened.  No finiteness is used.

  Kernel side: the run of the twelve segments names the result's contents (RunEnds), each region's result is a
  whole-array function of its operands (RegionScale, RegionMix), and the contents are carried between the
  boundaries (Keep, Stages).  Reference side: the generated run's term is the network (RefValue).
-/
import proofs.«169953_j9345848836755_1_alg».proof.Defs
import proofs.«169953_j9345848836755_1_alg».proof.Proof.Gen.Kernel
import proofs.«169953_j9345848836755_1_alg».proof.Proof.Gen.Kernel.Skeleton
import proofs.«169953_j9345848836755_1_alg».proof.Proof.Gen.Kernel.Launch
import proofs.«169953_j9345848836755_1_alg».proof.Proof.Gen.Kernel.Points
import proofs.«169953_j9345848836755_1_alg».proof.Proof.Gen.Kernel.Frame
import proofs.«169953_j9345848836755_1_alg».proof.Proof.Gen.KernelIdeal
import proofs.«169953_j9345848836755_1_alg».proof.Proof.Gen.KernelIdeal.Skeleton
import proofs.«169953_j9345848836755_1_alg».proof.Proof.Gen.KernelIdeal.Launch
import proofs.«169953_j9345848836755_1_alg».proof.Proof.Gen.KernelIdeal.Points
import proofs.«169953_j9345848836755_1_alg».proof.Proof.Gen.KernelIdeal.Frame
import proofs.«169953_j9345848836755_1_alg».proof.Proof.Gen.ReferenceIdeal
import proofs.«169953_j9345848836755_1_alg».proof.Proof.Gen.Pre_finite_inputs
import proofs.«169953_j9345848836755_1_alg».proof.Proof.Gen.ReferenceIdeal.Run
import proofs.«169953_j9345848836755_1_alg».proof.Proof.Gen.ReferenceIdeal.Read
import proofs.«169953_j9345848836755_1_alg».proof.Proof.RunEnds
import proofs.«169953_j9345848836755_1_alg».proof.Proof.Stages
import proofs.«169953_j9345848836755_1_alg».proof.Proof.RefValue
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the network of the (agreeing) argument arrays in the result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.net (Cert.GraphPart.graph (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Stages.w12_v91 m ρ c), (h c).2⟩)
      (Cert.KernelIdeal.RunValue.run_ends m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.RefValue.result_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
